-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S2x800000 : Shape := ⟨2, ![2, 800000]⟩
abbrev S800000 : Shape := ⟨1, ![800000]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x128 : Shape := ⟨2, ![128, 128]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S800000 : S_.BroadcastsInDim S800000 (![] : Fin 0 → Fin S800000.rank)
  reducesTo_S800000_S_d0 : S800000.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part2 {F : FTy → Type} [FloatOps F] (main_arg8 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg5 : FVec F S256x128 .f32) (main_arg6 : FVec F S128 .f32) (main_arg7 : FVec F S128x128 .f32) (main_arg8 : FVec F S128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x128 .f32 := Host.absf main_arg5
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_v33

def fn {F : FTy → Type} [FloatOps F] (main_arg0 : FVec F S50000x512 .f32) (main_arg1 : IVec S2x800000 32) (main_arg2 : FVec F S800000 .f32) (main_arg3 : FVec F S512x256 .f32) (main_arg4 : FVec F S256 .f32) (main_arg5 : FVec F S256x128 .f32) (main_arg6 : FVec F S128 .f32) (main_arg7 : FVec F S128x128 .f32) (main_arg8 : FVec F S128 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S512x256 .f32 := Host.absf main_arg3
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_arg8 main_v13 main_v16
-- ==== Kernel.lean ====
abbrev S50000x512 : Shape := ⟨2, ![50000, 512]⟩
abbrev S2x800000 : Shape := ⟨2, ![2, 800000]⟩
abbrev S800000 : Shape := ⟨1, ![800000]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x128 : Shape := ⟨2, ![128, 128]⟩
abbrev S50000 : Shape := ⟨1, ![50000]⟩
abbrev S1x800000 : Shape := ⟨2, ![1, 800000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S2000x512 : Shape := ⟨2, ![2000, 512]⟩
abbrev S2000x256 : Shape := ⟨2, ![2000, 256]⟩
abbrev S850000x256 : Shape := ⟨2, ![850000, 256]⟩
abbrev S1x256 : Shape := ⟨2, ![1, 256]⟩
abbrev S50000x128 : Shape := ⟨2, ![50000, 128]⟩
abbrev S2000x128 : Shape := ⟨2, ![2000, 128]⟩
abbrev S850000x128 : Shape := ⟨2, ![850000, 128]⟩
abbrev S1x128 : Shape := ⟨2, ![1, 128]⟩

abbrev nBuf : Space → Nat
  | .hbm => 95
  | .vmem => 16
  | .smem => 0
  | _ => 0

abbrev bufTy : (tb : Table) → Fin (tcTables nBuf tb) → BufTy
  | .hbm, ⟨0, _⟩ => ⟨S50000x512, .f32⟩
  | .hbm, ⟨1, _⟩ => ⟨S2x800000, .i32⟩
  | .hbm, ⟨2, _⟩ => ⟨S800000, .f32⟩
  | .hbm, ⟨3, _⟩ => ⟨S512x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S50000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S1x800000, .i32⟩
  | .hbm, ⟨14, _⟩ => ⟨S800000, .i32⟩
  | .hbm, ⟨15, _⟩ => ⟨S850000, .i32⟩
  | .hbm, ⟨16, _⟩ => ⟨S_, .f32⟩
  | .hbm, ⟨17, _⟩ => ⟨S50000, .f32⟩
  | .hbm, ⟨18, _⟩ => ⟨S850000, .f32⟩
  | .hbm, ⟨19, _⟩ => ⟨S_, .f32⟩
  | .hbm, ⟨20, _⟩ => ⟨S50000, .f32⟩
  | .hbm, ⟨21, _⟩ => ⟨S850000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .i1⟩
  | .hbm, ⟨26, _⟩ => ⟨S50000, .f32⟩
  | .hbm, ⟨27, _⟩ => ⟨S_, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S_, .i32⟩
  | .hbm, ⟨32, _⟩ => ⟨S850000, .i32⟩
  | .hbm, ⟨33, _⟩ => ⟨S850000, .i1⟩
  | .hbm, ⟨34, _⟩ => ⟨S_, .i32⟩
  | .hbm, ⟨35, _⟩ => ⟨S850000, .i32⟩
  | .hbm, ⟨36, _⟩ => ⟨S850000, .i32⟩
  | .hbm, ⟨37, _⟩ => ⟨S850000, .i32⟩
  | .hbm, ⟨38, _⟩ => ⟨S850000x1, .i32⟩
  | .hbm, ⟨39, _⟩ => ⟨S850000, .f32⟩
  | .hbm, ⟨40, _⟩ => ⟨S850000, .f32⟩
  | .hbm, ⟨41, _⟩ => ⟨S_, .i32⟩
  | .hbm, ⟨42, _⟩ => ⟨S850000, .i32⟩
  | .hbm, ⟨43, _⟩ => ⟨S850000, .i1⟩
  | .hbm, ⟨44, _⟩ => ⟨S_, .i32⟩
  | .hbm, ⟨45, _⟩ => ⟨S850000, .i32⟩
  | .hbm, ⟨46, _⟩ => ⟨S850000, .i32⟩
  | .hbm, ⟨47, _⟩ => ⟨S850000, .i32⟩
  | .hbm, ⟨48, _⟩ => ⟨S850000x1, .i32⟩
  | .hbm, ⟨49, _⟩ => ⟨S850000, .f32⟩
  | .hbm, ⟨50, _⟩ => ⟨S850000, .f32⟩
  | .hbm, ⟨51, _⟩ => ⟨S50000x256, .f32⟩
  | .hbm, ⟨52, _⟩ => ⟨S_, .i32⟩
  | .hbm, ⟨53, _⟩ => ⟨S850000, .i32⟩
  | .hbm, ⟨54, _⟩ => ⟨S850000, .i1⟩
  | .hbm, ⟨55, _⟩ => ⟨S_, .i32⟩
  | .hbm, ⟨56, _⟩ => ⟨S850000, .i32⟩
  | .hbm, ⟨57, _⟩ => ⟨S850000, .i32⟩
  | .hbm, ⟨58, _⟩ => ⟨S850000, .i32⟩
  | .hbm, ⟨59, _⟩ => ⟨S850000x1, .i32⟩
  | .hbm, ⟨60, _⟩ => ⟨S850000x256, .f32⟩
  | .hbm, ⟨61, _⟩ => ⟨S850000x1, .f32⟩
  | .hbm, ⟨62, _⟩ => ⟨S850000x256, .f32⟩
  | .hbm, ⟨63, _⟩ => ⟨S850000x256, .f32⟩
  | .hbm, ⟨64, _⟩ => ⟨S_, .f32⟩
  | .hbm, ⟨65, _⟩ => ⟨S50000x256, .f32⟩
  | .hbm, ⟨66, _⟩ => ⟨S850000x1, .i32⟩
  | .hbm, ⟨67, _⟩ => ⟨S50000x256, .f32⟩
  | .hbm, ⟨68, _⟩ => ⟨S1x256, .f32⟩
  | .hbm, ⟨69, _⟩ => ⟨S50000x256, .f32⟩
  | .hbm, ⟨70, _⟩ => ⟨S50000x256, .f32⟩
  | .hbm, ⟨71, _⟩ => ⟨S_, .f32⟩
  | .hbm, ⟨72, _⟩ => ⟨S50000x256, .f32⟩
  | .hbm, ⟨73, _⟩ => ⟨S50000x256, .f32⟩
  | .hbm, ⟨74, _⟩ => ⟨S50000x128, .f32⟩
  | .hbm, ⟨75, _⟩ => ⟨S_, .i32⟩
  | .hbm, ⟨76, _⟩ => ⟨S850000, .i32⟩
  | .hbm, ⟨77, _⟩ => ⟨S850000, .i1⟩
  | .hbm, ⟨78, _⟩ => ⟨S_, .i32⟩
  | .hbm, ⟨79, _⟩ => ⟨S850000, .i32⟩
  | .hbm, ⟨80, _⟩ => ⟨S850000, .i32⟩
  | .hbm, ⟨81, _⟩ => ⟨S850000, .i32⟩
  | .hbm, ⟨82, _⟩ => ⟨S850000x1, .i32⟩
  | .hbm, ⟨83, _⟩ => ⟨S850000x128, .f32⟩
  | .hbm, ⟨84, _⟩ => ⟨S850000x1, .f32⟩
  | .hbm, ⟨85, _⟩ => ⟨S850000x128, .f32⟩
  | .hbm, ⟨86, _⟩ => ⟨S850000x128, .f32⟩
  | .hbm, ⟨87, _⟩ => ⟨S_, .f32⟩
  | .hbm, ⟨88, _⟩ => ⟨S50000x128, .f32⟩
  | .hbm, ⟨89, _⟩ => ⟨S850000x1, .i32⟩
  | .hbm, ⟨90, _⟩ => ⟨S50000x128, .f32⟩
  | .hbm, ⟨91, _⟩ => ⟨S1x128, .f32⟩
  | .hbm, ⟨92, _⟩ => ⟨S50000x128, .f32⟩
  | .hbm, ⟨93, _⟩ => ⟨S50000x128, .f32⟩
  | .hbm, ⟨94, _⟩ => ⟨S50000x128, .f32⟩
  | .local _ .vmem, ⟨0, _⟩ => ⟨S2000x512, .f32⟩
  | .local _ .vmem, ⟨1, _⟩ => ⟨S2000x512, .f32⟩
  | .local _ .vmem, ⟨2, _⟩ => ⟨S512x256, .f32⟩
  | .local _ .vmem, ⟨3, _⟩ => ⟨S2000x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S256x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S128x128, .f32⟩
  | .local _ .vmem, ⟨13, _⟩ => ⟨S128, .f32⟩
  | .local _ .vmem, ⟨14, _⟩ => ⟨S2000x128, .f32⟩
  | .local _ .vmem, ⟨15, _⟩ => ⟨S2000x128, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_4 : Ref sig .tc := ⟨.hbm, 41, rfl⟩
abbrev main_v24 : Ref sig .tc := ⟨.hbm, 42, rfl⟩
abbrev main_v25 : Ref sig .tc := ⟨.hbm, 43, rfl⟩
abbrev main_c_5 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_6 : Ref sig .tc := ⟨.hbm, 52, rfl⟩
abbrev main_v33 : Ref sig .tc := ⟨.hbm, 53, rfl⟩
abbrev main_v34 : Ref sig .tc := ⟨.hbm, 54, rfl⟩
abbrev main_c_7 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_8 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_call1_cst : Ref sig .tc := ⟨.hbm, 71, rfl⟩
abbrev main_call1_v0 : Ref sig .tc := ⟨.hbm, 72, rfl⟩
abbrev main_v49 : Ref sig .tc := ⟨.hbm, 73, rfl⟩
abbrev main_v50 : Ref sig .tc := ⟨.hbm, 74, rfl⟩
abbrev main_c_9 : Ref sig .tc := ⟨.hbm, 75, rfl⟩
abbrev main_v51 : Ref sig .tc := ⟨.hbm, 76, rfl⟩
abbrev main_v52 : Ref sig .tc := ⟨.hbm, 77, rfl⟩
abbrev main_c_10 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_11 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg3_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem3_1 : DmaSem sig := 15

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S2000x256_S2000x256_0_0 : ∀ a, (![0, 0] : Fin 2 → Nat) a + S2000x256.size a ≤ S2000x256.size a
  h_S2000x256 : 0 < S2000x256.numel
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  shapeCasts_S2000x256_S2000x256 : S2000x256.ShapeCasts S2000x256
  inb_S256x128_S256x128_0_0 : ∀ a, (![0, 0] : Fin 2 → Nat) a + S256x128.size a ≤ S256x128.size a
  h_S256x128 : 0 < S256x128.numel
  inb_S2000x128_S2000x128_0_0 : ∀ a, (![0, 0] : Fin 2 → Nat) a + S2000x128.size a ≤ S2000x128.size a
  h_S2000x128 : 0 < S2000x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x512_S512x256_S2000x256_1_0_0_1_n_n_wf : DotDims.WF S2000x512 S512x256 S2000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S2000x256_S256x128_S2000x128_1_0_0_1_n_n_wf : DotDims.WF S2000x256 S256x128 S2000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .f32 = 32 ∨ (Rect.block (s := S50000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x128.size a ≤ S256x128.size a
  hwx1_1 : ∀ i : grid1.Coords, EltTy.bits .f32 = 32 ∨ (Rect.block (s := S256x128) S256x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128.size a ≤ S128.size a
  hwx2_2 : ∀ i : grid2.Coords, EltTy.bits .f32 = 32 ∨ (Rect.block (s := S128) S128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x128.size a ≤ S50000x128.size a
  hwx2_3 : ∀ i : grid2.Coords, EltTy.bits .f32 = 32 ∨ (Rect.block (s := S50000x128) S2000x128.size (cc2_transform_3 i) (hinb2_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v49) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S256x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v50) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v66) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v67) S2000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x512 : Shape := ⟨2, ![50000, 512]⟩
abbrev S2x800000 : Shape := ⟨2, ![2, 800000]⟩
abbrev S800000 : Shape := ⟨1, ![800000]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x128 : Shape := ⟨2, ![128, 128]⟩
abbrev S50000 : Shape := ⟨1, ![50000]⟩
abbrev S1x800000 : Shape := ⟨2, ![1, 800000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S850000x256 : Shape := ⟨2, ![850000, 256]⟩
abbrev S1x256 : Shape := ⟨2, ![1, 256]⟩
abbrev S50000x128 : Shape := ⟨2, ![50000, 128]⟩
abbrev S850000x128 : Shape := ⟨2, ![850000, 128]⟩
abbrev S1x128 : Shape := ⟨2, ![1, 128]⟩

abbrev nBuf : Space → Nat
  | .hbm => 98
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S2x800000, .i32⟩
  | .hbm, ⟨2, _⟩ => ⟨S800000, .f32⟩
  | .hbm, ⟨3, _⟩ => ⟨S512x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S50000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S1x800000, .i32⟩
  | .hbm, ⟨14, _⟩ => ⟨S800000, .i32⟩
  | .hbm, ⟨15, _⟩ => ⟨S850000, .i32⟩
  | .hbm, ⟨16, _⟩ => ⟨S_, .f32⟩
  | .hbm, ⟨17, _⟩ => ⟨S50000, .f32⟩
  | .hbm, ⟨18, _⟩ => ⟨S850000, .f32⟩
  | .hbm, ⟨19, _⟩ => ⟨S_, .f32⟩
  | .hbm, ⟨20, _⟩ => ⟨S50000, .f32⟩
  | .hbm, ⟨21, _⟩ => ⟨S850000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .i1⟩
  | .hbm, ⟨26, _⟩ => ⟨S50000, .f32⟩
  | .hbm, ⟨27, _⟩ => ⟨S_, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S_, .i32⟩
  | .hbm, ⟨32, _⟩ => ⟨S850000, .i32⟩
  | .hbm, ⟨33, _⟩ => ⟨S850000, .i1⟩
  | .hbm, ⟨34, _⟩ => ⟨S_, .i32⟩
  | .hbm, ⟨35, _⟩ => ⟨S850000, .i32⟩
  | .hbm, ⟨36, _⟩ => ⟨S850000, .i32⟩
  | .hbm, ⟨37, _⟩ => ⟨S850000, .i32⟩
  | .hbm, ⟨38, _⟩ => ⟨S850000x1, .i32⟩
  | .hbm, ⟨39, _⟩ => ⟨S850000, .f32⟩
  | .hbm, ⟨40, _⟩ => ⟨S850000, .f32⟩
  | .hbm, ⟨41, _⟩ => ⟨S_, .i32⟩
  | .hbm, ⟨42, _⟩ => ⟨S850000, .i32⟩
  | .hbm, ⟨43, _⟩ => ⟨S850000, .i1⟩
  | .hbm, ⟨44, _⟩ => ⟨S_, .i32⟩
  | .hbm, ⟨45, _⟩ => ⟨S850000, .i32⟩
  | .hbm, ⟨46, _⟩ => ⟨S850000, .i32⟩
  | .hbm, ⟨47, _⟩ => ⟨S850000, .i32⟩
  | .hbm, ⟨48, _⟩ => ⟨S850000x1, .i32⟩
  | .hbm, ⟨49, _⟩ => ⟨S850000, .f32⟩
  | .hbm, ⟨50, _⟩ => ⟨S850000, .f32⟩
  | .hbm, ⟨51, _⟩ => ⟨S50000x256, .f32⟩
  | .hbm, ⟨52, _⟩ => ⟨S_, .i32⟩
  | .hbm, ⟨53, _⟩ => ⟨S850000, .i32⟩
  | .hbm, ⟨54, _⟩ => ⟨S850000, .i1⟩
  | .hbm, ⟨55, _⟩ => ⟨S_, .i32⟩
  | .hbm, ⟨56, _⟩ => ⟨S850000, .i32⟩
  | .hbm, ⟨57, _⟩ => ⟨S850000, .i32⟩
  | .hbm, ⟨58, _⟩ => ⟨S850000, .i32⟩
  | .hbm, ⟨59, _⟩ => ⟨S850000x1, .i32⟩
  | .hbm, ⟨60, _⟩ => ⟨S850000x256, .f32⟩
  | .hbm, ⟨61, _⟩ => ⟨S850000x1, .f32⟩
  | .hbm, ⟨62, _⟩ => ⟨S850000x256, .f32⟩
  | .hbm, ⟨63, _⟩ => ⟨S850000x256, .f32⟩
  | .hbm, ⟨64, _⟩ => ⟨S_, .f32⟩
  | .hbm, ⟨65, _⟩ => ⟨S50000x256, .f32⟩
  | .hbm, ⟨66, _⟩ => ⟨S850000x1, .i32⟩
  | .hbm, ⟨67, _⟩ => ⟨S50000x256, .f32⟩
  | .hbm, ⟨68, _⟩ => ⟨S1x256, .f32⟩
  | .hbm, ⟨69, _⟩ => ⟨S50000x256, .f32⟩
  | .hbm, ⟨70, _⟩ => ⟨S50000x256, .f32⟩
  | .hbm, ⟨71, _⟩ => ⟨S_, .f32⟩
  | .hbm, ⟨72, _⟩ => ⟨S50000x256, .f32⟩
  | .hbm, ⟨73, _⟩ => ⟨S50000x256, .f32⟩
  | .hbm, ⟨74, _⟩ => ⟨S50000x128, .f32⟩
  | .hbm, ⟨75, _⟩ => ⟨S_, .i32⟩
  | .hbm, ⟨76, _⟩ => ⟨S850000, .i32⟩
  | .hbm, ⟨77, _⟩ => ⟨S850000, .i1⟩
  | .hbm, ⟨78, _⟩ => ⟨S_, .i32⟩
  | .hbm, ⟨79, _⟩ => ⟨S850000, .i32⟩
  | .hbm, ⟨80, _⟩ => ⟨S850000, .i32⟩
  | .hbm, ⟨81, _⟩ => ⟨S850000, .i32⟩
  | .hbm, ⟨82, _⟩ => ⟨S850000x1, .i32⟩
  | .hbm, ⟨83, _⟩ => ⟨S850000x128, .f32⟩
  | .hbm, ⟨84, _⟩ => ⟨S850000x1, .f32⟩
  | .hbm, ⟨85, _⟩ => ⟨S850000x128, .f32⟩
  | .hbm, ⟨86, _⟩ => ⟨S850000x128, .f32⟩
  | .hbm, ⟨87, _⟩ => ⟨S_, .f32⟩
  | .hbm, ⟨88, _⟩ => ⟨S50000x128, .f32⟩
  | .hbm, ⟨89, _⟩ => ⟨S850000x1, .i32⟩
  | .hbm, ⟨90, _⟩ => ⟨S50000x128, .f32⟩
  | .hbm, ⟨91, _⟩ => ⟨S1x128, .f32⟩
  | .hbm, ⟨92, _⟩ => ⟨S50000x128, .f32⟩
  | .hbm, ⟨93, _⟩ => ⟨S50000x128, .f32⟩
  | .hbm, ⟨94, _⟩ => ⟨S50000x128, .f32⟩
  | .hbm, ⟨95, _⟩ => ⟨S1x128, .f32⟩
  | .hbm, ⟨96, _⟩ => ⟨S50000x128, .f32⟩
  | .hbm, ⟨97, _⟩ => ⟨S50000x128, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_4 : Ref sig .tc := ⟨.hbm, 41, rfl⟩
abbrev main_v24 : Ref sig .tc := ⟨.hbm, 42, rfl⟩
abbrev main_v25 : Ref sig .tc := ⟨.hbm, 43, rfl⟩
abbrev main_c_5 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_6 : Ref sig .tc := ⟨.hbm, 52, rfl⟩
abbrev main_v33 : Ref sig .tc := ⟨.hbm, 53, rfl⟩
abbrev main_v34 : Ref sig .tc := ⟨.hbm, 54, rfl⟩
abbrev main_c_7 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_8 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_call1_cst : Ref sig .tc := ⟨.hbm, 71, rfl⟩
abbrev main_call1_v0 : Ref sig .tc := ⟨.hbm, 72, rfl⟩
abbrev main_v49 : Ref sig .tc := ⟨.hbm, 73, rfl⟩
abbrev main_v50 : Ref sig .tc := ⟨.hbm, 74, rfl⟩
abbrev main_c_9 : Ref sig .tc := ⟨.hbm, 75, rfl⟩
abbrev main_v51 : Ref sig .tc := ⟨.hbm, 76, rfl⟩
abbrev main_v52 : Ref sig .tc := ⟨.hbm, 77, rfl⟩
abbrev main_c_10 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_11 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x512_S512x256_S50000x256_1_0_0_1_n_n_wf : DotDims.WF S50000x512 S512x256 S50000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x128_S50000x128_1_0_0_1_n_n_wf : DotDims.WF S50000x256 S256x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x128_S50000x128_1_0_0_1_n_n_wf : DotDims.WF S50000x128 S128x128 S50000x128 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x512_S512x256_S50000x256_1_0_0_1_n_n : DotDims S50000x512 S512x256 S50000x256 where
  lhsContracting := [1]
  rhsContracting := [0]
  lhsNonContracting := [0]
  rhsNonContracting := [1]
  lhsBatch := []
  rhsBatch := []
  wf := dot_S50000x512_S512x256_S50000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KernelRun.lean ====
/-
  The run of the idealized kernel program, with its buffers named. The program is nine segments: three stretches of host
  operations, the first product, two stretches, the second product, one stretch, the third product. The buffer contents at each
  boundary are a fold from the launch memory: a stretch applies its operations in order, a region replaces its output array by
  what its grid points wrote back and leaves every other buffer alone. Every weakly fair execution terminates, and at the end each
  buffer that lives across the whole program holds the last boundary's contents — in particular the result array, which is the
  third region's output.
-/
import proofs.«132185_j17308718202949_1_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, and every final memory holds, in each buffer that
    lives across the program, the contents of the last boundary. The launch deals each core its buffers at the launch contents,
    which is the first thread state; the segments chain from boundary to boundary; the last thread state is read against the final
    memory buffer by buffer. -/
theorem run_held : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c => h c)

/-- The result array and the nine argument arrays at the end of the run: the result at the last boundary's contents, each
    argument as launched (no stretch and no region writes an argument). -/
theorem run : θ_run defs (onTc (τ := τ) (main (F := F))) ⟨m, fun _ => 0, ρ⟩ (fun r => ∀ c : Dev nD,
      r.2.mem ((c.tc : Thread nD τ).loc main_v67) = W9 m ρ c (Proc.devRef .tc main_v67)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
      ⟨h c _ (mem_uc main_v67 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c)⟩)
    (run_held m ρ)

end Cert.KernelIdeal.RunValue

end
-- ==== Proof.RowsTimes.lean ====
/-
  The product of a matrix by a matrix, entry by entry, on the extended reals: entry (r, c) of x · w is the sum over the
  contraction index k of x[r, k] · w[k, c]. Both programs compute three such products (50000 × 512 by 512 × 256, 50000 × 256 by
  256 × 128, 50000 × 128 by 128 × 128); each side's product is shown equal to this one function, so no property of the sum beyond
  its definition is used: the terms are added in the same finite sum on both sides. The last product has a bias row added to
  every row of the result.
-/
import Idealize.ShloMosaic.PureOps.Ideal
import Idealize.ShloMosaic.Lib.ValueIdx

noncomputable section

namespace Cert.Spec

open Idealize.ShloMosaic Idealize.ShloMosaic.ValueIdx

/-- Entry (r, c) of the product of x (M rows, K columns) by w (K rows, N columns). -/
def rowsTimes (M K N : Nat) (x : FVec Ideal ⟨2, ![M, K]⟩ .f32) (w : FVec Ideal ⟨2, ![K, N]⟩ .f32) : FVec Ideal ⟨2, ![M, N]⟩ .f32 :=
  fun i => ∑ k : Fin K, x (ix2 (⟨(i 0).val, idx2_lt0 i⟩ : Fin M) k) * w (ix2 k (⟨(i 1).val, idx2_lt1 i⟩ : Fin N))

theorem rowsTimes_apply (M K N : Nat) (x : FVec Ideal ⟨2, ![M, K]⟩ .f32) (w : FVec Ideal ⟨2, ![K, N]⟩ .f32) (i : (⟨2, ![M, N]⟩ : Shape).Idx) :
    rowsTimes M K N x w i = ∑ k : Fin K, x (ix2 (⟨(i 0).val, idx2_lt0 i⟩ : Fin M) k) * w (ix2 k (⟨(i 1).val, idx2_lt1 i⟩ : Fin N)) := rfl

/-- The product with a row added to every row: entry (r, c) of x · w + b is entry (r, c) of the product plus b[c]. -/
def rowsTimesPlus (M K N : Nat) (x : FVec Ideal ⟨2, ![M, K]⟩ .f32) (w : FVec Ideal ⟨2, ![K, N]⟩ .f32) (b : FVec Ideal ⟨1, ![N]⟩ .f32) :
    FVec Ideal ⟨2, ![M, N]⟩ .f32 :=
  fun i => rowsTimes M K N x w i + b (ix1 (⟨(i 1).val, idx2_lt1 i⟩ : Fin N))

theorem rowsTimesPlus_apply (M K N : Nat) (x : FVec Ideal ⟨2, ![M, K]⟩ .f32) (w : FVec Ideal ⟨2, ![K, N]⟩ .f32) (b : FVec Ideal ⟨1, ![N]⟩ .f32)
    (i : (⟨2, ![M, N]⟩ : Shape).Idx) :
    rowsTimesPlus M K N x w b i
      = (∑ k : Fin K, x (ix2 (⟨(i 0).val, idx2_lt0 i⟩ : Fin M) k) * w (ix2 k (⟨(i 1).val, idx2_lt1 i⟩ : Fin N))) + b (ix1 (⟨(i 1).val, idx2_lt1 i⟩ : Fin N)) := rfl

end Cert.Spec

end
-- ==== Proof.Region0.lean ====
/-
  The first product. The region runs over 25 grid points; point t reads rows 2000 t … 2000 t + 1999 of the left array (all 512
  columns) and the whole right array (512 × 256), multiplies them into a zero accumulator, and writes the 2000 × 256 result to the
  same rows of the output array. On the extended reals the change of float format on both operands is the identity, and the
  product into zero is the plain sum over the contraction index. The 25 row blocks tile the 50000 rows, so the output array ends
  as the product of the two whole arrays, whatever they held when the region was entered.
-/
import proofs.«132185_j17308718202949_1_alg».proof.Proof.Gen.KernelIdeal.Frame
import proofs.«132185_j17308718202949_1_alg».proof.Proof.RowsTimes
import Idealize.ShloMosaic.Lib.Pipeline.Value
import Idealize.ShloMosaic.Lib.ValueIdx
import Idealize.ShloMosaic.PureOps.Ideal.Laws

set_option maxRecDepth 16384

noncomputable section

namespace Cert.KernelIdeal.Region0

open Idealize.ShloMosaic Idealize.ShloMosaic.TcCoe Idealize.ShloMosaic.ValueIdx Idealize.SL.Sem
open Idealize.ShloMosaic.Pipeline (Dat)
open Cert.KernelIdeal Cert.KernelIdeal.Gen Cert.Spec

variable (V : (c : Dev nD) → (b : Ref sig .tc) → Buf (Elt Ideal) ((c : Thread nD τ).loc b))

theorem origin : (![0, 0] : Fin 2 → Nat) = fun _ => 0 := funext fun a => by fin_cases a <;> rfl

/-- The product's left operand at output (p, q) and contraction index k is entry (p, k); its right operand is entry (k, q). -/
theorem lhs_row (i : S2000x256.Idx) (k : dot_S2000x512_S512x256_S2000x256_1_0_0_1_n_n.contr.Idx) : (dot_S2000x512_S512x256_S2000x256_1_0_0_1_n_n.lhsIdx i k 0).val = (i 0).val := by
  unfold DotDims.lhsIdx
  rw [dif_neg (show ¬(0 : Fin S2000x512.rank) ∈ dot_S2000x512_S512x256_S2000x256_1_0_0_1_n_n.lhsBatch by decide), dif_pos (show (0 : Fin S2000x512.rank) ∈ dot_S2000x512_S512x256_S2000x256_1_0_0_1_n_n.lhsNonContracting by decide)]
  rfl
theorem lhs_col (i : S2000x256.Idx) (k : dot_S2000x512_S512x256_S2000x256_1_0_0_1_n_n.contr.Idx) : (dot_S2000x512_S512x256_S2000x256_1_0_0_1_n_n.lhsIdx i k 1).val = (k ⟨0, by decide⟩).val :=
  dot_S2000x512_S512x256_S2000x256_1_0_0_1_n_n.lhsIdx_val_of_single rfl i k
theorem rhs_row (i : S2000x256.Idx) (k : dot_S2000x512_S512x256_S2000x256_1_0_0_1_n_n.contr.Idx) : (dot_S2000x512_S512x256_S2000x256_1_0_0_1_n_n.rhsIdx i k 0).val = (k ⟨0, by decide⟩).val :=
  dot_S2000x512_S512x256_S2000x256_1_0_0_1_n_n.rhsIdx_val_of_single rfl i k
theorem rhs_col (i : S2000x256.Idx) (k : dot_S2000x512_S512x256_S2000x256_1_0_0_1_n_n.contr.Idx) : (dot_S2000x512_S512x256_S2000x256_1_0_0_1_n_n.rhsIdx i k 1).val = (i 1).val := by
  unfold DotDims.rhsIdx
  rw [dif_neg (show ¬(1 : Fin S512x256.rank) ∈ dot_S2000x512_S512x256_S2000x256_1_0_0_1_n_n.rhsBatch by decide), dif_pos (show (1 : Fin S512x256.rank) ∈ dot_S2000x512_S512x256_S2000x256_1_0_0_1_n_n.rhsNonContracting by decide)]
  rfl

/-- One entry of the body's product: the sum over the 512 contraction indices of left[p, k] · right[k, q]. The two changes of
    float format are the identity on the extended reals, and the accumulator is zero. -/
theorem block_product (x0 : Vec Ideal S2000x512 .f32) (x1 : Vec Ideal S512x256 .f32) (p : Fin 2000) (q : Fin 256) :
    k0_pay1 (F := Ideal) x0 x1 (ix2 p q) = ∑ k : Fin 512, x0 (ix2 p k) * x1 (ix2 k q) := by
  unfold k0_pay1
  refine (Ideal.matmul_constant_zero_apply dot_S2000x512_S512x256_S2000x256_1_0_0_1_n_n none _ _ (ix2 p q)).trans ?_
  rw [← Equiv.sum_comp (contrEquiv1 dot_S2000x512_S512x256_S2000x256_1_0_0_1_n_n 512 rfl rfl).symm]
  refine Finset.sum_congr rfl fun k _ => ?_
  have hk := contrEquiv1_symm_val dot_S2000x512_S512x256_S2000x256_1_0_0_1_n_n 512 rfl rfl k
  have el : dot_S2000x512_S512x256_S2000x256_1_0_0_1_n_n.lhsIdx (ix2 p q) ((contrEquiv1 dot_S2000x512_S512x256_S2000x256_1_0_0_1_n_n 512 rfl rfl).symm k) = ix2 p k :=
    funext fun a => Fin.ext (by
      match a with
      | ⟨0, _⟩ => exact lhs_row _ _
      | ⟨1, _⟩ => exact (lhs_col _ _).trans hk)
  have er : dot_S2000x512_S512x256_S2000x256_1_0_0_1_n_n.rhsIdx (ix2 p q) ((contrEquiv1 dot_S2000x512_S512x256_S2000x256_1_0_0_1_n_n 512 rfl rfl).symm k) = ix2 k q :=
    funext fun a => Fin.ext (by
      match a with
      | ⟨0, _⟩ => exact (rhs_row _ _).trans hk
      | ⟨1, _⟩ => exact rhs_col _ _)
  rw [el, er]
  rfl

/-- The same at any index of the block, its two coordinates named. -/
theorem block_product_at (x0 : Vec Ideal S2000x512 .f32) (x1 : Vec Ideal S512x256 .f32) (j : S2000x256.Idx) :
    k0_pay1 (F := Ideal) x0 x1 j
      = ∑ k : Fin 512, x0 (ix2 (⟨(j 0).val, idx2_lt0 j⟩ : Fin 2000) k) * x1 (ix2 k (⟨(j 1).val, idx2_lt1 j⟩ : Fin 256)) := by
  have hj : j = ix2 (⟨(j 0).val, idx2_lt0 j⟩ : Fin 2000) (⟨(j 1).val, idx2_lt1 j⟩ : Fin 256) :=
    funext fun a => match a with | ⟨0, _⟩ => rfl | ⟨1, _⟩ => rfl
  exact (congrArg (k0_pay1 (F := Ideal) x0 x1) hj).trans (block_product x0 x1 _ _)

/-- Where the windows sit at grid point t: the left operand's and the output's row block is block t, every column block is block
    0, and the right operand is its one block. -/
theorem places : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Block t of the product, from the two whole arrays: the body's product of rows 2000 t … of X by W, read at an entry of the
    block, is the product of the whole arrays read at that entry's place in the output array. -/
theorem block_of_arrays (X : FVec Ideal S50000x512 .f32) (W : FVec Ideal S512x256 .f32) (t : Fin cfg0.N) (j : S2000x256.Idx) :
    k0_pay1 (F := Ideal) (((cfg0.win 0).blk t).view.read (Elt Ideal) X) (((cfg0.win 1).blk t).view.read (Elt Ideal) W) j
      = rowsTimes 50000 512 256 X W (((cfg0.win 2).blk t).view.emb j) := by
  obtain ⟨e0, e1, e2, e3, e4, e5⟩ := places t
  refine (block_product_at _ _ j).trans ?_
  rw [rowsTimes_apply]
  refine Finset.sum_congr rfl fun k _ => ?_
  show X (((cfg0.win 0).blk t).view.emb (ix2 _ k)) * W (((cfg0.win 1).blk t).view.emb (ix2 k _)) = X (ix2 _ k) * W (ix2 k _)
  refine congrArg₂ (· * ·) (congrArg X (funext fun a => Fin.ext ?_)) (congrArg W (funext fun a => Fin.ext ?_))
  · match a with
    | ⟨0, _⟩ => show win0_0.index t (0 : Fin 2) * 2000 + 1 * (j 0).val = win0_2.index t (0 : Fin 2) * 2000 + 1 * (j 0).val; omega
    | ⟨1, _⟩ => show win0_0.index t (1 : Fin 2) * 512 + 1 * k.val = k.val; omega
  · match a with
    | ⟨0, _⟩ => show win0_1.index t (0 : Fin 2) * 512 + 1 * k.val = k.val; omega
    | ⟨1, _⟩ => show win0_1.index t (1 : Fin 2) * 256 + 1 * (j 1).val = win0_2.index t (1 : Fin 2) * 256 + 1 * (j 1).val; omega

/-- What point t writes back is block t of the product of the two arrays as the region finds them. -/
theorem written (c : Dev nD) (t : Fin cfg0.N) :
    (dat0 V c).flushed 2 t = ((cfg0.win 2).blk t).view.read (Elt Ideal) (rowsTimes 50000 512 256 (V c main_arg0) (V c main_arg3)) := by
  show (cfg0.win 2).cut (grid0.coords t) ((dat0 V c).after 2 t) = _
  rw [after0_2]
  unfold out0_2
  rw [View.canon_unit_zero origin]
  simp only [View.ld_unit_zero (S := S2000x512) origin, View.ld_unit_zero (S := S512x256) origin]
  funext j
  exact block_of_arrays (V c main_arg0) (V c main_arg3) t j

/-- An index of the output array lies in point t's block iff each coordinate lies in the block's range on its axis. -/
theorem mem_block (t : Fin cfg0.N) (i : S50000x256.Idx) :
    i ∈ ((cfg0.win 2).blk t).view.set ↔ ∀ a : Fin 2, win0_2.index t a * S2000x256.size a ≤ (i a).val ∧ (i a).val < win0_2.index t a * S2000x256.size a + S2000x256.size a := by
  show i ∈ ((View.whole main_v32).slice (win0_2.rect t)).set ↔ _
  rw [View.set_slice_whole, Rect.mem_set_unit]
  exact Iff.rfl

/-- The 25 row blocks tile the array: row r lies in the block of point r / 2000, and every column lies in the one column block. -/
theorem tiled (i : S50000x256.Idx) : ∃ t : Fin cfg0.N, (cfg0.win 2).flush t = true ∧ i ∈ ((cfg0.win 2).blk t).view.set := by
  have h0 : (i 0).val < 50000 := idx2_lt0 i
  have h1 : (i 1).val < 256 := idx2_lt1 i
  have hN : grid0.N = 25 := N_0
  have hlt : (i 0).val / 2000 < grid0.N := by omega
  obtain ⟨e0, e1, e2, e3, e4, e5⟩ := places ⟨(i 0).val / 2000, hlt⟩
  refine ⟨⟨(i 0).val / 2000, hlt⟩, flush0_2 _, ?_⟩
  rw [mem_block]
  intro a
  match a with
  | ⟨0, _⟩ =>
    show win0_2.index ⟨(i 0).val / 2000, hlt⟩ (0 : Fin 2) * 2000 ≤ (i 0).val ∧ (i 0).val < win0_2.index ⟨(i 0).val / 2000, hlt⟩ (0 : Fin 2) * 2000 + 2000
    have e4' : win0_2.index ⟨(i 0).val / 2000, hlt⟩ (0 : Fin 2) = (i 0).val / 2000 := e4
    omega
  | ⟨1, _⟩ =>
    show win0_2.index ⟨(i 0).val / 2000, hlt⟩ (1 : Fin 2) * 256 ≤ (i 1).val ∧ (i 1).val < win0_2.index ⟨(i 0).val / 2000, hlt⟩ (1 : Fin 2) * 256 + 256
    omega

/-- After the region its output array is the product of its two input arrays as the region found them. -/
theorem product (c : Dev nD) :
    (dat0 V c).arrAt 2 cfg0.N = rowsTimes 50000 512 256 (V c main_arg0) (V c main_arg3) :=
  (dat0 V c).arrAt_eq_of_cover 2 _ (fun t _ => written V c t) tiled

end Cert.KernelIdeal.Region0

end
-- ==== Proof.RefSpec.lean ====
/-
  The reference's three matrix products, each as the one function `rowsTimes` of its two operands, whatever the operands are; and
  its last two operations, which repeat the bias over the rows and add it, as `rowsTimesPlus`.
-/
import proofs.«132185_j17308718202949_1_alg».proof.Proof.Gen.ReferenceIdeal.Read
import proofs.«132185_j17308718202949_1_alg».proof.Proof.RowsTimes
import Idealize.ShloMosaic.Lib.ValueIdx
import Idealize.ShloMosaic.Lib.ValueLayout
import Idealize.ShloMosaic.PureOps.Ideal.Laws

noncomputable section

namespace Cert.ReferenceIdeal.RefSpec

open Idealize.ShloMosaic Idealize.ShloMosaic.TcCoe Idealize.ShloMosaic.ValueIdx Idealize.SL.Sem
open Cert.ReferenceIdeal Cert.ReferenceIdeal.Read Cert.Spec

/-- The reference's product of a 50000 × 512 array by a 512 × 256 array is `rowsTimes` of them: the host's dot_general at an index is the sum
    over its one contracted axis, and the operand indices at output (r, c) and contraction index k are (r, k) and (k, c). -/
theorem product32 (L : FVec Ideal S50000x512 .f32) (R : FVec Ideal S512x256 .f32) :
    Host.dotGeneral (F := Ideal) dot_S50000x512_S512x256_S50000x256_1_0_0_1_n_n none L R = rowsTimes 50000 512 256 L R := by
  funext i
  simp only [Host.dotGeneral]
  rw [Ideal.dotGeneral_apply, ← Equiv.sum_comp (contrEquiv1 dot_S50000x512_S512x256_S50000x256_1_0_0_1_n_n 512 rfl rfl).symm, rowsTimes_apply]
  refine Finset.sum_congr rfl fun k _ => ?_
  have hk := contrEquiv1_symm_val dot_S50000x512_S512x256_S50000x256_1_0_0_1_n_n 512 rfl rfl k
  have el : dot_S50000x512_S512x256_S50000x256_1_0_0_1_n_n.lhsIdx i ((contrEquiv1 dot_S50000x512_S512x256_S50000x256_1_0_0_1_n_n 512 rfl rfl).symm k) = ix2 (⟨(i 0).val, idx2_lt0 i⟩ : Fin 50000) k :=
    funext fun a => Fin.ext (by
      match a with
      | ⟨0, _⟩ => exact lhs_main_v32_0 _ _
      | ⟨1, _⟩ => exact (lhs_main_v32_1 _ _).trans hk)
  have er : dot_S50000x512_S512x256_S50000x256_1_0_0_1_n_n.rhsIdx i ((contrEquiv1 dot_S50000x512_S512x256_S50000x256_1_0_0_1_n_n 512 rfl rfl).symm k) = ix2 k (⟨(i 1).val, idx2_lt1 i⟩ : Fin 256) :=
    funext fun a => Fin.ext (by
      match a with
      | ⟨0, _⟩ => exact (rhs_main_v32_0 _ _).trans hk
      | ⟨1, _⟩ => exact rhs_main_v32_1 _ _)
  rw [el, er]

/-- The reference's product of a 50000 × 256 array by a 256 × 128 array is `rowsTimes` of them: the host's dot_general at an index is the sum
    over its one contracted axis, and the operand indices at output (r, c) and contraction index k are (r, k) and (k, c). -/
theorem product50 (L : FVec Ideal S50000x256 .f32) (R : FVec Ideal S256x128 .f32) :
    Host.dotGeneral (F := Ideal) dot_S50000x256_S256x128_S50000x128_1_0_0_1_n_n none L R = rowsTimes 50000 256 128 L R := by
  funext i
  simp only [Host.dotGeneral]
  rw [Ideal.dotGeneral_apply, ← Equiv.sum_comp (contrEquiv1 dot_S50000x256_S256x128_S50000x128_1_0_0_1_n_n 256 rfl rfl).symm, rowsTimes_apply]
  refine Finset.sum_congr rfl fun k _ => ?_
  have hk := contrEquiv1_symm_val dot_S50000x256_S256x128_S50000x128_1_0_0_1_n_n 256 rfl rfl k
  have el : dot_S50000x256_S256x128_S50000x128_1_0_0_1_n_n.lhsIdx i ((contrEquiv1 dot_S50000x256_S256x128_S50000x128_1_0_0_1_n_n 256 rfl rfl).symm k) = ix2 (⟨(i 0).val, idx2_lt0 i⟩ : Fin 50000) k :=
    funext fun a => Fin.ext (by
      match a with
      | ⟨0, _⟩ => exact lhs_main_v50_0 _ _
      | ⟨1, _⟩ => exact (lhs_main_v50_1 _ _).trans hk)
  have er : dot_S50000x256_S256x128_S50000x128_1_0_0_1_n_n.rhsIdx i ((contrEquiv1 dot_S50000x256_S256x128_S50000x128_1_0_0_1_n_n 256 rfl rfl).symm k) = ix2 k (⟨(i 1).val, idx2_lt1 i⟩ : Fin 128) :=
    funext fun a => Fin.ext (by
      match a with
      | ⟨0, _⟩ => exact (rhs_main_v50_0 _ _).trans hk
      | ⟨1, _⟩ => exact rhs_main_v50_1 _ _)
  rw [el, er]

/-- The reference's product of a 50000 × 128 array by a 128 × 128 array is `rowsTimes` of them: the host's dot_general at an index is the sum
    over its one contracted axis, and the operand indices at output (r, c) and contraction index k are (r, k) and (k, c). -/
theorem product67 (L : FVec Ideal S50000x128 .f32) (R : FVec Ideal S128x128 .f32) :
    Host.dotGeneral (F := Ideal) dot_S50000x128_S128x128_S50000x128_1_0_0_1_n_n none L R = rowsTimes 50000 128 128 L R := by
  funext i
  simp only [Host.dotGeneral]
  rw [Ideal.dotGeneral_apply, ← Equiv.sum_comp (contrEquiv1 dot_S50000x128_S128x128_S50000x128_1_0_0_1_n_n 128 rfl rfl).symm, rowsTimes_apply]
  refine Finset.sum_congr rfl fun k _ => ?_
  have hk := contrEquiv1_symm_val dot_S50000x128_S128x128_S50000x128_1_0_0_1_n_n 128 rfl rfl k
  have el : dot_S50000x128_S128x128_S50000x128_1_0_0_1_n_n.lhsIdx i ((contrEquiv1 dot_S50000x128_S128x128_S50000x128_1_0_0_1_n_n 128 rfl rfl).symm k) = ix2 (⟨(i 0).val, idx2_lt0 i⟩ : Fin 50000) k :=
    funext fun a => Fin.ext (by
      match a with
      | ⟨0, _⟩ => exact lhs_main_v67_0 _ _
      | ⟨1, _⟩ => exact (lhs_main_v67_1 _ _).trans hk)
  have er : dot_S50000x128_S128x128_S50000x128_1_0_0_1_n_n.rhsIdx i ((contrEquiv1 dot_S50000x128_S128x128_S50000x128_1_0_0_1_n_n 128 rfl rfl).symm k) = ix2 k (⟨(i 1).val, idx2_lt1 i⟩ : Fin 128) :=
    funext fun a => Fin.ext (by
      match a with
      | ⟨0, _⟩ => exact (rhs_main_v67_0 _ _).trans hk
      | ⟨1, _⟩ => exact rhs_main_v67_1 _ _)
  rw [el, er]

/-- The reference's last three operations: the product, the bias recast as one row and that row repeated over the 50000 rows, and
    their sum — entry (r, c) is the product's entry plus bias[c]. -/
theorem biased (L : FVec Ideal S50000x128 .f32) (R : FVec Ideal S128x128 .f32) (B : FVec Ideal S128 .f32)
    (h1 : S1x128.BroadcastsInDim S50000x128 (![0, 1] : Fin 2 → Fin S50000x128.rank)) (h2 : S128.BroadcastsInDim S1x128 (![1] : Fin 1 → Fin S1x128.rank)) :
    addf (Host.dotGeneral (F := Ideal) dot_S50000x128_S128x128_S50000x128_1_0_0_1_n_n none L R)
        (broadcastInDim S50000x128 ![0, 1] h1 (broadcastInDim S1x128 ![1] h2 B))
      = rowsTimesPlus 50000 128 128 L R B := by
  funext i
  refine (addf_apply _ _ i).trans ?_
  rw [product67 L R]
  refine congrArg (rowsTimes 50000 128 128 L R i + ·) ?_
  refine (broadcastInDim_apply ![0, 1] h1 _ i (ix2 (0 : Fin 1) (⟨(i 1).val, idx2_lt1 i⟩ : Fin 128)) (fun a => ?_)).trans
    (broadcastInDim_apply ![1] h2 B (ix2 (0 : Fin 1) (⟨(i 1).val, idx2_lt1 i⟩ : Fin 128)) (ix1 (⟨(i 1).val, idx2_lt1 i⟩ : Fin 128)) (fun a => ?_))
  · match a with
    | ⟨0, _⟩ => rfl
    | ⟨1, _⟩ => rfl
  · match a with
    | ⟨0, _⟩ => rfl

end Cert.ReferenceIdeal.RefSpec

end
-- ==== Proof.Thread0.lean ====
/-
  The kernel program up to the end of its first region, buffer by buffer, against the reference's stages. The first stretch of host
  operations is the reference's text: the edge sources and targets with the self loops appended, the edge weights with the loops'
  ones appended, the degrees, their inverse square roots where the degree is positive, and the normalisation of every edge. So
  after it the three buffers the later stretches read — sources, targets and normalisation — hold the reference's values of the
  same arguments, and the arguments are untouched. The first region then leaves the product of the node features by the first
  weight matrix, which is the reference's first dot_general.
-/
import proofs.«132185_j17308718202949_1_alg».proof.Proof.Gen.KernelIdeal.Frame
import proofs.«132185_j17308718202949_1_alg».proof.Proof.Region0
import proofs.«132185_j17308718202949_1_alg».proof.Proof.RefSpec

set_option maxRecDepth 16384

noncomputable section

namespace Cert.KernelIdeal.Thread

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg) (c : Dev nD)

/-! ## Contents carried between a buffer's own type and the value's type

A call's operations read and write their buffers through a transport along the buffer's type equation, which is the identity. -/

/-- Contents carried to a buffer's own type and back are unchanged. -/
theorem ofBuf_toBuf {T : BufTy} (x : TRef sig T) (v : T.Contents (Elt Ideal)) : x.ofBuf (x.toBuf v) = v := by
  obtain ⟨r, h, h2, h3⟩ := x
  subst h
  rfl
theorem out_v15 (v : (⟨S50000, .f32⟩ : BufTy).Contents (Elt Ideal)) : (TRef.of (sig := sig) (T := ⟨S50000, .f32⟩) main_v15).toBuf v = v := cast_eq _ _
theorem in_v13 (v : (⟨S50000, .i1⟩ : BufTy).Contents (Elt Ideal)) : (TRef.of (sig := sig) (T := ⟨S50000, .i1⟩) main_v13).ofBuf v = v := cast_eq _ _
theorem in_v14 (v : (⟨S50000, .f32⟩ : BufTy).Contents (Elt Ideal)) : (TRef.of (sig := sig) (T := ⟨S50000, .f32⟩) main_v14).ofBuf v = v := cast_eq _ _
theorem in_cst2 (v : (⟨S_, .f32⟩ : BufTy).Contents (Elt Ideal)) : (TRef.of (sig := sig) (T := ⟨S_, .f32⟩) main_cst_2).ofBuf v = v := cast_eq _ _
theorem out_c0 (v : (⟨S_, .f32⟩ : BufTy).Contents (Elt Ideal)) : (TRef.of (sig := sig) (T := ⟨S_, .f32⟩) main_call0_v0).toBuf v = v := cast_eq _ _

/-! ## The first stretch, up to the call that picks the inverse square roots -/

set_option maxHeartbeats 4000000 in
/-- The edge sources with the self loops appended. -/
theorem sources1 : StableHlo.after hostOps0 (W0 m ρ c) (Proc.devRef .tc main_v3) = Cert.ReferenceIdeal.Read.val_main_v3 (F := Ideal) (m ((c : Thread nD τ).loc main_arg1)) := by
  after_results_simp
  rfl

set_option maxHeartbeats 4000000 in
/-- The edge targets with the self loops appended. -/
theorem targets1 : StableHlo.after hostOps0 (W0 m ρ c) (Proc.devRef .tc main_v6) = Cert.ReferenceIdeal.Read.val_main_v6 (F := Ideal) (m ((c : Thread nD τ).loc main_arg1)) := by
  after_results_simp
  rfl

set_option maxHeartbeats 4000000 in
/-- The edge weights with the loops' ones appended. -/
theorem weights1 : StableHlo.after hostOps0 (W0 m ρ c) (Proc.devRef .tc main_v8) = Cert.ReferenceIdeal.Read.val_main_v8 (F := Ideal) (m ((c : Thread nD τ).loc main_arg2)) := by
  after_results_simp
  rfl

set_option maxHeartbeats 4000000 in
/-- Which degrees are positive. -/
theorem positive1 : StableHlo.after hostOps0 (W0 m ρ c) (Proc.devRef .tc main_v13) = Cert.ReferenceIdeal.Read.val_main_v13 (F := Ideal) (m ((c : Thread nD τ).loc main_arg1)) (m ((c : Thread nD τ).loc main_arg2)) := by
  after_results_simp
  rfl

set_option maxHeartbeats 4000000 in
/-- The inverse square roots of the degrees. -/
theorem rsqrt1 : StableHlo.after hostOps0 (W0 m ρ c) (Proc.devRef .tc main_v14) = Cert.ReferenceIdeal.Read.val_main_v14 (F := Ideal) (m ((c : Thread nD τ).loc main_arg1)) (m ((c : Thread nD τ).loc main_arg2)) := by
  after_results_simp
  rfl

set_option maxHeartbeats 4000000 in
/-- The zero the call is handed. -/
theorem zero1 : StableHlo.after hostOps0 (W0 m ρ c) (Proc.devRef .tc main_cst_2) = Cert.ReferenceIdeal.Read.val_main_cst_2 (F := Ideal) := by
  after_results_simp
  rfl

/-! ## The call: the inverse square root where the degree is positive, zero elsewhere -/

set_option maxHeartbeats 4000000 in
/-- The inverse square root of the degree where it is positive, zero elsewhere. -/
theorem selected2 : StableHlo.after hostOps0_1 (StableHlo.after hostOps0 (W0 m ρ c)) (Proc.devRef .tc main_v15) = Cert.ReferenceIdeal.Read.val_main_v15 (F := Ideal) (m ((c : Thread nD τ).loc main_arg1)) (m ((c : Thread nD τ).loc main_arg2)) := by
  generalize hU : StableHlo.after hostOps0 (W0 m ρ c) = U
  after_results_simp
  subst hU
  rw [positive1 m ρ c, rsqrt1 m ρ c, zero1 m ρ c]
  unfold Cert.ReferenceIdeal.Read.val_main_v15 Cert.ReferenceIdeal.Read.val_main_call0_v1 Cert.ReferenceIdeal.Read.val_main_call0_v0
  generalize Cert.ReferenceIdeal.Read.val_main_v13 (F := Ideal) (m ((c : Thread nD τ).loc main_arg1)) (m ((c : Thread nD τ).loc main_arg2)) = p
  generalize Cert.ReferenceIdeal.Read.val_main_v14 (F := Ideal) (m ((c : Thread nD τ).loc main_arg1)) (m ((c : Thread nD τ).loc main_arg2)) = r
  generalize Cert.ReferenceIdeal.Read.val_main_cst_2 (F := Ideal) = z
  simp only [out_v15, in_v13, in_v14, in_cst2, out_c0, ofBuf_toBuf]
  rfl

set_option maxHeartbeats 4000000 in
/-- The call leaves the sources alone. -/
theorem sources2 : StableHlo.after hostOps0_1 (StableHlo.after hostOps0 (W0 m ρ c)) (Proc.devRef .tc main_v3) = Cert.ReferenceIdeal.Read.val_main_v3 (F := Ideal) (m ((c : Thread nD τ).loc main_arg1)) := by
  generalize hU : StableHlo.after hostOps0 (W0 m ρ c) = U
  after_results_simp
  subst hU
  exact sources1 m ρ c

set_option maxHeartbeats 4000000 in
/-- The call leaves the targets alone. -/
theorem targets2 : StableHlo.after hostOps0_1 (StableHlo.after hostOps0 (W0 m ρ c)) (Proc.devRef .tc main_v6) = Cert.ReferenceIdeal.Read.val_main_v6 (F := Ideal) (m ((c : Thread nD τ).loc main_arg1)) := by
  generalize hU : StableHlo.after hostOps0 (W0 m ρ c) = U
  after_results_simp
  subst hU
  exact targets1 m ρ c

set_option maxHeartbeats 4000000 in
/-- The call leaves the weights alone. -/
theorem weights2 : StableHlo.after hostOps0_1 (StableHlo.after hostOps0 (W0 m ρ c)) (Proc.devRef .tc main_v8) = Cert.ReferenceIdeal.Read.val_main_v8 (F := Ideal) (m ((c : Thread nD τ).loc main_arg2)) := by
  generalize hU : StableHlo.after hostOps0 (W0 m ρ c) = U
  after_results_simp
  subst hU
  exact weights1 m ρ c

/-! ## The rest of the first stretch: the normalisation of every edge -/

set_option maxHeartbeats 8000000 in
/-- The normalisation of every edge: the selected inverse square roots at its two ends (read through the sources and the targets, an index below zero counted from the end) times its weight. -/
theorem norm3 : W3 m ρ c (Proc.devRef .tc main_v31) = Cert.ReferenceIdeal.Read.val_main_v31 (F := Ideal) (m ((c : Thread nD τ).loc main_arg1)) (m ((c : Thread nD τ).loc main_arg2)) := by
  show StableHlo.after hostOps0_2 (StableHlo.after hostOps0_1 (StableHlo.after hostOps0 (W0 m ρ c))) (Proc.devRef .tc main_v31) = _
  generalize hU : StableHlo.after hostOps0_1 (StableHlo.after hostOps0 (W0 m ρ c)) = U
  after_results_simp
  subst hU
  rw [selected2 m ρ c, sources2 m ρ c, targets2 m ρ c, weights2 m ρ c]
  rfl

set_option maxHeartbeats 4000000 in
/-- The sources are not written again. -/
theorem sources3 : W3 m ρ c (Proc.devRef .tc main_v3) = Cert.ReferenceIdeal.Read.val_main_v3 (F := Ideal) (m ((c : Thread nD τ).loc main_arg1)) := by
  show StableHlo.after hostOps0_2 (StableHlo.after hostOps0_1 (StableHlo.after hostOps0 (W0 m ρ c))) (Proc.devRef .tc main_v3) = _
  generalize hU : StableHlo.after hostOps0_1 (StableHlo.after hostOps0 (W0 m ρ c)) = U
  after_results_simp
  subst hU
  exact sources2 m ρ c

set_option maxHeartbeats 4000000 in
/-- The targets are not written again. -/
theorem targets3 : W3 m ρ c (Proc.devRef .tc main_v6) = Cert.ReferenceIdeal.Read.val_main_v6 (F := Ideal) (m ((c : Thread nD τ).loc main_arg1)) := by
  show StableHlo.after hostOps0_2 (StableHlo.after hostOps0_1 (StableHlo.after hostOps0 (W0 m ρ c))) (Proc.devRef .tc main_v6) = _
  generalize hU : StableHlo.after hostOps0_1 (StableHlo.after hostOps0 (W0 m ρ c)) = U
  after_results_simp
  subst hU
  exact targets2 m ρ c

set_option maxHeartbeats 4000000 in
/-- No operation of the first stretch writes argument 0. -/
theorem arg0_3 : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  after_results_simp

set_option maxHeartbeats 4000000 in
/-- No operation of the first stretch writes argument 3. -/
theorem arg3_3 : W3 m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  after_results_simp

set_option maxHeartbeats 4000000 in
/-- No operation of the first stretch writes argument 4. -/
theorem arg4_3 : W3 m ρ c (Proc.devRef .tc main_arg4) = m ((c : Thread nD τ).loc main_arg4) := by
  show StableHlo.after hostOps0_2 (StableHlo.after hostOps0_1 (StableHlo.after hostOps0 (W0 m ρ c))) (Proc.devRef .tc main_arg4) = _
  after_results_simp

set_option maxHeartbeats 4000000 in
/-- No operation of the first stretch writes argument 5. -/
theorem arg5_3 : W3 m ρ c (Proc.devRef .tc main_arg5) = m ((c : Thread nD τ).loc main_arg5) := by
  show StableHlo.after hostOps0_2 (StableHlo.after hostOps0_1 (StableHlo.after hostOps0 (W0 m ρ c))) (Proc.devRef .tc main_arg5) = _
  after_results_simp

set_option maxHeartbeats 4000000 in
/-- No operation of the first stretch writes argument 6. -/
theorem arg6_3 : W3 m ρ c (Proc.devRef .tc main_arg6) = m ((c : Thread nD τ).loc main_arg6) := by
  show StableHlo.after hostOps0_2 (StableHlo.after hostOps0_1 (StableHlo.after hostOps0 (W0 m ρ c))) (Proc.devRef .tc main_arg6) = _
  after_results_simp

set_option maxHeartbeats 4000000 in
/-- No operation of the first stretch writes argument 7. -/
theorem arg7_3 : W3 m ρ c (Proc.devRef .tc main_arg7) = m ((c : Thread nD τ).loc main_arg7) := by
  show StableHlo.after hostOps0_2 (StableHlo.after hostOps0_1 (StableHlo.after hostOps0 (W0 m ρ c))) (Proc.devRef .tc main_arg7) = _
  after_results_simp

set_option maxHeartbeats 4000000 in
/-- No operation of the first stretch writes argument 8. -/
theorem arg8_3 : W3 m ρ c (Proc.devRef .tc main_arg8) = m ((c : Thread nD τ).loc main_arg8) := by
  show StableHlo.after hostOps0_2 (StableHlo.after hostOps0_1 (StableHlo.after hostOps0 (W0 m ρ c))) (Proc.devRef .tc main_arg8) = _
  after_results_simp

/-! ## After the first region -/

/-- The first region leaves the product of the node features by the first weight matrix: the reference's first dot_general. -/
theorem hidden4 : W4 m ρ c (Proc.devRef .tc main_v32) = Cert.ReferenceIdeal.Read.val_main_v32 (F := Ideal) (m ((c : Thread nD τ).loc main_arg0)) (m ((c : Thread nD τ).loc main_arg3)) := by
  refine (W4_arr m ρ c 2).trans ?_
  refine (Cert.KernelIdeal.Region0.product (V3 m ρ) c).trans ?_
  have h0 : V3 m ρ c main_arg0 = (m ((c : Thread nD τ).loc main_arg0)) := arg0_3 m ρ c
  have h3 : V3 m ρ c main_arg3 = (m ((c : Thread nD τ).loc main_arg3)) := arg3_3 m ρ c
  rw [h0, h3]
  exact (Cert.ReferenceIdeal.RefSpec.product32 _ _).symm

/-- The region writes its output array only. -/
theorem sources4 : W4 m ρ c (Proc.devRef .tc main_v3) = Cert.ReferenceIdeal.Read.val_main_v3 (F := Ideal) (m ((c : Thread nD τ).loc main_arg1)) := (W4_of_ne m ρ c main_v3 (by decide)).trans (sources3 m ρ c)
theorem targets4 : W4 m ρ c (Proc.devRef .tc main_v6) = Cert.ReferenceIdeal.Read.val_main_v6 (F := Ideal) (m ((c : Thread nD τ).loc main_arg1)) := (W4_of_ne m ρ c main_v6 (by decide)).trans (targets3 m ρ c)
theorem norm4 : W4 m ρ c (Proc.devRef .tc main_v31) = Cert.ReferenceIdeal.Read.val_main_v31 (F := Ideal) (m ((c : Thread nD τ).loc main_arg1)) (m ((c : Thread nD τ).loc main_arg2)) := (W4_of_ne m ρ c main_v31 (by decide)).trans (norm3 m ρ c)
theorem arg4_4 : W4 m ρ c (Proc.devRef .tc main_arg4) = m ((c : Thread nD τ).loc main_arg4) := (W4_of_ne m ρ c main_arg4 (by decide)).trans (arg4_3 m ρ c)
theorem arg5_4 : W4 m ρ c (Proc.devRef .tc main_arg5) = m ((c : Thread nD τ).loc main_arg5) := (W4_of_ne m ρ c main_arg5 (by decide)).trans (arg5_3 m ρ c)
theorem arg6_4 : W4 m ρ c (Proc.devRef .tc main_arg6) = m ((c : Thread nD τ).loc main_arg6) := (W4_of_ne m ρ c main_arg6 (by decide)).trans (arg6_3 m ρ c)
theorem arg7_4 : W4 m ρ c (Proc.devRef .tc main_arg7) = m ((c : Thread nD τ).loc main_arg7) := (W4_of_ne m ρ c main_arg7 (by decide)).trans (arg7_3 m ρ c)
theorem arg8_4 : W4 m ρ c (Proc.devRef .tc main_arg8) = m ((c : Thread nD τ).loc main_arg8) := (W4_of_ne m ρ c main_arg8 (by decide)).trans (arg8_3 m ρ c)

end Cert.KernelIdeal.Thread

end
-- ==== Proof.Region1.lean ====
/-
  The second product. As in the first region, 25 grid points; point t reads rows 2000 t … 2000 t + 1999 of the left array (all 256
  columns) and the whole right array (256 × 128), and writes the 2000 × 128 product into a zero accumulator to the same rows of
  the output array. The body first recasts the left block to its own shape, which changes nothing. The 25 row blocks tile the
  50000 rows, so the output array ends as the product of the two whole arrays as the region found them.
-/
import proofs.«132185_j17308718202949_1_alg».proof.Proof.Gen.KernelIdeal.Frame
import proofs.«132185_j17308718202949_1_alg».proof.Proof.RowsTimes
import Idealize.ShloMosaic.Lib.Pipeline.Value
import Idealize.ShloMosaic.Lib.ValueIdx
import Idealize.ShloMosaic.PureOps.Ideal.Laws

set_option maxRecDepth 16384

noncomputable section

namespace Cert.KernelIdeal.Region1

open Idealize.ShloMosaic Idealize.ShloMosaic.TcCoe Idealize.ShloMosaic.ValueIdx Idealize.SL.Sem
open Idealize.ShloMosaic.Pipeline (Dat)
open Cert.KernelIdeal Cert.KernelIdeal.Gen Cert.Spec

variable (V : (c : Dev nD) → (b : Ref sig .tc) → Buf (Elt Ideal) ((c : Thread nD τ).loc b))

theorem origin : (![0, 0] : Fin 2 → Nat) = fun _ => 0 := funext fun a => by fin_cases a <;> rfl

/-- The product's left operand at output (p, q) and contraction index k is entry (p, k); its right operand is entry (k, q). -/
theorem lhs_row (i : S2000x128.Idx) (k : dot_S2000x256_S256x128_S2000x128_1_0_0_1_n_n.contr.Idx) : (dot_S2000x256_S256x128_S2000x128_1_0_0_1_n_n.lhsIdx i k 0).val = (i 0).val := by
  unfold DotDims.lhsIdx
  rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
  rfl
theorem lhs_col (i : S2000x128.Idx) (k : dot_S2000x256_S256x128_S2000x128_1_0_0_1_n_n.contr.Idx) : (dot_S2000x256_S256x128_S2000x128_1_0_0_1_n_n.lhsIdx i k 1).val = (k ⟨0, by decide⟩).val :=
  dot_S2000x256_S256x128_S2000x128_1_0_0_1_n_n.lhsIdx_val_of_single rfl i k
theorem rhs_row (i : S2000x128.Idx) (k : dot_S2000x256_S256x128_S2000x128_1_0_0_1_n_n.contr.Idx) : (dot_S2000x256_S256x128_S2000x128_1_0_0_1_n_n.rhsIdx i k 0).val = (k ⟨0, by decide⟩).val :=
  dot_S2000x256_S256x128_S2000x128_1_0_0_1_n_n.rhsIdx_val_of_single rfl i k
theorem rhs_col (i : S2000x128.Idx) (k : dot_S2000x256_S256x128_S2000x128_1_0_0_1_n_n.contr.Idx) : (dot_S2000x256_S256x128_S2000x128_1_0_0_1_n_n.rhsIdx i k 1).val = (i 1).val := by
  unfold DotDims.rhsIdx
  rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
  rfl

/-- One entry of the body's product: the sum over the 256 contraction indices of left[p, k] · right[k, q]. The recast of the
    left block to its own shape and the two changes of float format are the identity, and the accumulator is zero. -/
theorem block_product (x0 : Vec Ideal S2000x256 .f32) (x1 : Vec Ideal S256x128 .f32) (p : Fin 2000) (q : Fin 128) :
    k1_pay1 (F := Ideal) x0 x1 (ix2 p q) = ∑ k : Fin 256, x0 (ix2 p k) * x1 (ix2 k q) := by
  unfold k1_pay1
  rw [shapeCast_self]
  refine (Ideal.matmul_constant_zero_apply dot_S2000x256_S256x128_S2000x128_1_0_0_1_n_n none _ _ (ix2 p q)).trans ?_
  rw [← Equiv.sum_comp (contrEquiv1 dot_S2000x256_S256x128_S2000x128_1_0_0_1_n_n 256 rfl rfl).symm]
  refine Finset.sum_congr rfl fun k _ => ?_
  have hk := contrEquiv1_symm_val dot_S2000x256_S256x128_S2000x128_1_0_0_1_n_n 256 rfl rfl k
  have el : dot_S2000x256_S256x128_S2000x128_1_0_0_1_n_n.lhsIdx (ix2 p q) ((contrEquiv1 dot_S2000x256_S256x128_S2000x128_1_0_0_1_n_n 256 rfl rfl).symm k) = ix2 p k :=
    funext fun a => Fin.ext (by
      match a with
      | ⟨0, _⟩ => exact lhs_row _ _
      | ⟨1, _⟩ => exact (lhs_col _ _).trans hk)
  have er : dot_S2000x256_S256x128_S2000x128_1_0_0_1_n_n.rhsIdx (ix2 p q) ((contrEquiv1 dot_S2000x256_S256x128_S2000x128_1_0_0_1_n_n 256 rfl rfl).symm k) = ix2 k q :=
    funext fun a => Fin.ext (by
      match a with
      | ⟨0, _⟩ => exact (rhs_row _ _).trans hk
      | ⟨1, _⟩ => exact rhs_col _ _)
  rw [el, er]
  rfl

/-- The same at any index of the block, its two coordinates named. -/
theorem block_product_at (x0 : Vec Ideal S2000x256 .f32) (x1 : Vec Ideal S256x128 .f32) (j : S2000x128.Idx) :
    k1_pay1 (F := Ideal) x0 x1 j
      = ∑ k : Fin 256, x0 (ix2 (⟨(j 0).val, idx2_lt0 j⟩ : Fin 2000) k) * x1 (ix2 k (⟨(j 1).val, idx2_lt1 j⟩ : Fin 128)) := by
  have hj : j = ix2 (⟨(j 0).val, idx2_lt0 j⟩ : Fin 2000) (⟨(j 1).val, idx2_lt1 j⟩ : Fin 128) :=
    funext fun a => match a with | ⟨0, _⟩ => rfl | ⟨1, _⟩ => rfl
  exact (congrArg (k1_pay1 (F := Ideal) x0 x1) hj).trans (block_product x0 x1 _ _)

/-- Where the windows sit at grid point t: the left operand's and the output's row block is block t, every column block is block
    0, and the right operand is its one block. -/
theorem places : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Block t of the product, from the two whole arrays: the body's product of rows 2000 t … of X by W, read at an entry of the
    block, is the product of the whole arrays read at that entry's place in the output array. -/
theorem block_of_arrays (X : FVec Ideal S50000x256 .f32) (W : FVec Ideal S256x128 .f32) (t : Fin cfg1.N) (j : S2000x128.Idx) :
    k1_pay1 (F := Ideal) (((cfg1.win 0).blk t).view.read (Elt Ideal) X) (((cfg1.win 1).blk t).view.read (Elt Ideal) W) j
      = rowsTimes 50000 256 128 X W (((cfg1.win 2).blk t).view.emb j) := by
  obtain ⟨e0, e1, e2, e3, e4, e5⟩ := places t
  refine (block_product_at _ _ j).trans ?_
  rw [rowsTimes_apply]
  refine Finset.sum_congr rfl fun k _ => ?_
  show X (((cfg1.win 0).blk t).view.emb (ix2 _ k)) * W (((cfg1.win 1).blk t).view.emb (ix2 k _)) = X (ix2 _ k) * W (ix2 k _)
  refine congrArg₂ (· * ·) (congrArg X (funext fun a => Fin.ext ?_)) (congrArg W (funext fun a => Fin.ext ?_))
  · match a with
    | ⟨0, _⟩ => show win1_0.index t (0 : Fin 2) * 2000 + 1 * (j 0).val = win1_2.index t (0 : Fin 2) * 2000 + 1 * (j 0).val; omega
    | ⟨1, _⟩ => show win1_0.index t (1 : Fin 2) * 256 + 1 * k.val = k.val; omega
  · match a with
    | ⟨0, _⟩ => show win1_1.index t (0 : Fin 2) * 256 + 1 * k.val = k.val; omega
    | ⟨1, _⟩ => show win1_1.index t (1 : Fin 2) * 128 + 1 * (j 1).val = win1_2.index t (1 : Fin 2) * 128 + 1 * (j 1).val; omega

/-- What point t writes back is block t of the product of the two arrays as the region finds them. -/
theorem written (c : Dev nD) (t : Fin cfg1.N) :
    (dat1 V c).flushed 2 t = ((cfg1.win 2).blk t).view.read (Elt Ideal) (rowsTimes 50000 256 128 (V c main_v49) (V c main_arg5)) := by
  show (cfg1.win 2).cut (grid1.coords t) ((dat1 V c).after 2 t) = _
  rw [after1_2]
  unfold out1_2
  rw [View.canon_unit_zero origin]
  simp only [View.ld_unit_zero (S := S2000x256) origin, View.ld_unit_zero (S := S256x128) origin]
  funext j
  exact block_of_arrays (V c main_v49) (V c main_arg5) t j

/-- An index of the output array lies in point t's block iff each coordinate lies in the block's range on its axis. -/
theorem mem_block (t : Fin cfg1.N) (i : S50000x128.Idx) :
    i ∈ ((cfg1.win 2).blk t).view.set ↔ ∀ a : Fin 2, win1_2.index t a * S2000x128.size a ≤ (i a).val ∧ (i a).val < win1_2.index t a * S2000x128.size a + S2000x128.size a := by
  show i ∈ ((View.whole main_v50).slice (win1_2.rect t)).set ↔ _
  rw [View.set_slice_whole, Rect.mem_set_unit]
  exact Iff.rfl

/-- The 25 row blocks tile the array: row r lies in the block of point r / 2000, and every column lies in the one column block. -/
theorem tiled (i : S50000x128.Idx) : ∃ t : Fin cfg1.N, (cfg1.win 2).flush t = true ∧ i ∈ ((cfg1.win 2).blk t).view.set := by
  have h0 : (i 0).val < 50000 := idx2_lt0 i
  have h1 : (i 1).val < 128 := idx2_lt1 i
  have hN : grid1.N = 25 := N_1
  have hlt : (i 0).val / 2000 < grid1.N := by omega
  obtain ⟨e0, e1, e2, e3, e4, e5⟩ := places ⟨(i 0).val / 2000, hlt⟩
  refine ⟨⟨(i 0).val / 2000, hlt⟩, flush1_2 _, ?_⟩
  rw [mem_block]
  intro a
  match a with
  | ⟨0, _⟩ =>
    show win1_2.index ⟨(i 0).val / 2000, hlt⟩ (0 : Fin 2) * 2000 ≤ (i 0).val ∧ (i 0).val < win1_2.index ⟨(i 0).val / 2000, hlt⟩ (0 : Fin 2) * 2000 + 2000
    have e4' : win1_2.index ⟨(i 0).val / 2000, hlt⟩ (0 : Fin 2) = (i 0).val / 2000 := e4
    omega
  | ⟨1, _⟩ =>
    show win1_2.index ⟨(i 0).val / 2000, hlt⟩ (1 : Fin 2) * 128 ≤ (i 1).val ∧ (i 1).val < win1_2.index ⟨(i 0).val / 2000, hlt⟩ (1 : Fin 2) * 128 + 128
    omega

/-- After the region its output array is the product of its two input arrays as the region found them. -/
theorem product (c : Dev nD) :
    (dat1 V c).arrAt 2 cfg1.N = rowsTimes 50000 256 128 (V c main_v49) (V c main_arg5) :=
  (dat1 V c).arrAt_eq_of_cover 2 _ (fun t _ => written V c t) tiled

end Cert.KernelIdeal.Region1

end
-- ==== Proof.Thread1.lean ====
/-
  The kernel program from the end of its first region to the end of its second. The second stretch is the reference's text again:
  every edge gathers the row of its source from the first product (an index below zero counted from the end), scales it by the
  edge's normalisation, the rows are summed into their targets, the first bias is added to every row, and the relu call takes the
  maximum with zero. Its inputs are the first product, the sources, the targets and the normalisation, which hold the reference's
  values, so its result is the reference's. The second region then leaves that result times the second weight matrix.
-/
import proofs.«132185_j17308718202949_1_alg».proof.Proof.Gen.KernelIdeal.Frame
import proofs.«132185_j17308718202949_1_alg».proof.Proof.Thread0
import proofs.«132185_j17308718202949_1_alg».proof.Proof.Region1

set_option maxRecDepth 16384

noncomputable section

namespace Cert.KernelIdeal.Thread

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg) (c : Dev nD)

/-! ## The second stretch up to the bias -/

set_option maxHeartbeats 8000000 in
/-- The first aggregation plus the first bias. -/
theorem aggregated5 : StableHlo.after hostOps1 (W4 m ρ c) (Proc.devRef .tc main_v48) = Cert.ReferenceIdeal.Read.val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  after_results_simp
  rw [hidden4 m ρ c, sources4 m ρ c, targets4 m ρ c, norm4 m ρ c, arg4_4 m ρ c]
  rfl

/-! ## The relu call -/

theorem out_v49 (v : (⟨S50000x256, .f32⟩ : BufTy).Contents (Elt Ideal)) : (TRef.of (sig := sig) (T := ⟨S50000x256, .f32⟩) main_v49).toBuf v = v := cast_eq _ _
theorem in_v48 (v : (⟨S50000x256, .f32⟩ : BufTy).Contents (Elt Ideal)) : (TRef.of (sig := sig) (T := ⟨S50000x256, .f32⟩) main_v48).ofBuf v = v := cast_eq _ _

set_option maxHeartbeats 4000000 in
/-- The maximum of the aggregation with zero. -/
theorem relu6 : W6 m ρ c (Proc.devRef .tc main_v49) = Cert.ReferenceIdeal.Read.val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps1_1 (StableHlo.after hostOps1 (W4 m ρ c)) (Proc.devRef .tc main_v49) = _
  generalize hU : StableHlo.after hostOps1 (W4 m ρ c) = U
  after_results_simp
  subst hU
  rw [aggregated5 m ρ c]
  unfold Cert.ReferenceIdeal.Read.val_main_v49 Cert.ReferenceIdeal.Read.val_main_call1_v0 Cert.ReferenceIdeal.Read.val_main_call1_cst
  generalize Cert.ReferenceIdeal.Read.val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)) = p
  simp only [out_v49, in_v48, in_cst2, out_c0, ofBuf_toBuf]

/-! ## What the second stretch leaves alone -/

set_option maxHeartbeats 4000000 in
theorem sources6 : W6 m ρ c (Proc.devRef .tc main_v3) = Cert.ReferenceIdeal.Read.val_main_v3 (F := Ideal) (m ((c : Thread nD τ).loc main_arg1)) := by
  show StableHlo.after hostOps1_1 (StableHlo.after hostOps1 (W4 m ρ c)) (Proc.devRef .tc main_v3) = _
  after_results_simp
  exact sources4 m ρ c

set_option maxHeartbeats 4000000 in
theorem targets6 : W6 m ρ c (Proc.devRef .tc main_v6) = Cert.ReferenceIdeal.Read.val_main_v6 (F := Ideal) (m ((c : Thread nD τ).loc main_arg1)) := by
  show StableHlo.after hostOps1_1 (StableHlo.after hostOps1 (W4 m ρ c)) (Proc.devRef .tc main_v6) = _
  after_results_simp
  exact targets4 m ρ c

set_option maxHeartbeats 4000000 in
theorem norm6 : W6 m ρ c (Proc.devRef .tc main_v31) = Cert.ReferenceIdeal.Read.val_main_v31 (F := Ideal) (m ((c : Thread nD τ).loc main_arg1)) (m ((c : Thread nD τ).loc main_arg2)) := by
  show StableHlo.after hostOps1_1 (StableHlo.after hostOps1 (W4 m ρ c)) (Proc.devRef .tc main_v31) = _
  after_results_simp
  exact norm4 m ρ c

set_option maxHeartbeats 4000000 in
theorem arg5_6 : W6 m ρ c (Proc.devRef .tc main_arg5) = m ((c : Thread nD τ).loc main_arg5) := by
  show StableHlo.after hostOps1_1 (StableHlo.after hostOps1 (W4 m ρ c)) (Proc.devRef .tc main_arg5) = _
  after_results_simp
  exact arg5_4 m ρ c

set_option maxHeartbeats 4000000 in
theorem arg6_6 : W6 m ρ c (Proc.devRef .tc main_arg6) = m ((c : Thread nD τ).loc main_arg6) := by
  show StableHlo.after hostOps1_1 (StableHlo.after hostOps1 (W4 m ρ c)) (Proc.devRef .tc main_arg6) = _
  after_results_simp
  exact arg6_4 m ρ c

set_option maxHeartbeats 4000000 in
theorem arg7_6 : W6 m ρ c (Proc.devRef .tc main_arg7) = m ((c : Thread nD τ).loc main_arg7) := by
  show StableHlo.after hostOps1_1 (StableHlo.after hostOps1 (W4 m ρ c)) (Proc.devRef .tc main_arg7) = _
  after_results_simp
  exact arg7_4 m ρ c

set_option maxHeartbeats 4000000 in
theorem arg8_6 : W6 m ρ c (Proc.devRef .tc main_arg8) = m ((c : Thread nD τ).loc main_arg8) := by
  show StableHlo.after hostOps1_1 (StableHlo.after hostOps1 (W4 m ρ c)) (Proc.devRef .tc main_arg8) = _
  after_results_simp
  exact arg8_4 m ρ c

/-! ## After the second region -/

/-- The second region leaves the product of the relu's result by the second weight matrix: the reference's second dot_general. -/
theorem hidden7 : W7 m ρ c (Proc.devRef .tc main_v50) = Cert.ReferenceIdeal.Read.val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W7_arr m ρ c 2).trans ?_
  refine (Cert.KernelIdeal.Region1.product (V6 m ρ) c).trans ?_
  have h0 : V6 m ρ c main_v49 = Cert.ReferenceIdeal.Read.val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := relu6 m ρ c
  have h1 : V6 m ρ c main_arg5 = (m ((c : Thread nD τ).loc main_arg5)) := arg5_6 m ρ c
  rw [h0, h1]
  exact (Cert.ReferenceIdeal.RefSpec.product50 _ _).symm

/-- The region writes its output array only. -/
theorem sources7 : W7 m ρ c (Proc.devRef .tc main_v3) = Cert.ReferenceIdeal.Read.val_main_v3 (F := Ideal) (m ((c : Thread nD τ).loc main_arg1)) := (W7_of_ne m ρ c main_v3 (by decide)).trans (sources6 m ρ c)
theorem targets7 : W7 m ρ c (Proc.devRef .tc main_v6) = Cert.ReferenceIdeal.Read.val_main_v6 (F := Ideal) (m ((c : Thread nD τ).loc main_arg1)) := (W7_of_ne m ρ c main_v6 (by decide)).trans (targets6 m ρ c)
theorem norm7 : W7 m ρ c (Proc.devRef .tc main_v31) = Cert.ReferenceIdeal.Read.val_main_v31 (F := Ideal) (m ((c : Thread nD τ).loc main_arg1)) (m ((c : Thread nD τ).loc main_arg2)) := (W7_of_ne m ρ c main_v31 (by decide)).trans (norm6 m ρ c)
theorem arg6_7 : W7 m ρ c (Proc.devRef .tc main_arg6) = m ((c : Thread nD τ).loc main_arg6) := (W7_of_ne m ρ c main_arg6 (by decide)).trans (arg6_6 m ρ c)
theorem arg7_7 : W7 m ρ c (Proc.devRef .tc main_arg7) = m ((c : Thread nD τ).loc main_arg7) := (W7_of_ne m ρ c main_arg7 (by decide)).trans (arg7_6 m ρ c)
theorem arg8_7 : W7 m ρ c (Proc.devRef .tc main_arg8) = m ((c : Thread nD τ).loc main_arg8) := (W7_of_ne m ρ c main_arg8 (by decide)).trans (arg8_6 m ρ c)

end Cert.KernelIdeal.Thread

end
-- ==== Proof.Region2.lean ====
/-
  The third product, with the bias. 25 grid points; point t reads rows 2000 t … 2000 t + 1999 of the left array (all 128 columns),
  the whole right array (128 × 128) and the whole bias (128 entries), multiplies into a zero accumulator, adds the bias to every
  row (the bias recast as one row and that row repeated 2000 times), and writes the 2000 × 128 result to the same rows of the
  output array. The 25 row blocks tile the 50000 rows, so the output array ends as the product of the two whole arrays plus the
  bias on every row.
-/
import proofs.«132185_j17308718202949_1_alg».proof.Proof.Gen.KernelIdeal.Frame
import proofs.«132185_j17308718202949_1_alg».proof.Proof.RowsTimes
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region2

open Idealize.ShloMosaic Idealize.ShloMosaic.TcCoe Idealize.ShloMosaic.ValueIdx Idealize.SL.Sem
open Idealize.ShloMosaic.Pipeline (Dat)
open Cert.KernelIdeal Cert.KernelIdeal.Gen Cert.Spec

variable (V : (c : Dev nD) → (b : Ref sig .tc) → Buf (Elt Ideal) ((c : Thread nD τ).loc b))

theorem origin : (![0, 0] : Fin 2 → Nat) = fun _ => 0 := funext fun a => by fin_cases a <;> rfl
theorem origin1 : (![0] : Fin 1 → Nat) = fun _ => 0 := funext fun a => by fin_cases a; rfl

/-- The product's left operand at output (p, q) and contraction index k is entry (p, k); its right operand is entry (k, q). -/
theorem lhs_row (i : S2000x128.Idx) (k : dot_S2000x128_S128x128_S2000x128_1_0_0_1_n_n.contr.Idx) : (dot_S2000x128_S128x128_S2000x128_1_0_0_1_n_n.lhsIdx i k 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_col (i : S2000x128.Idx) (k : dot_S2000x128_S128x128_S2000x128_1_0_0_1_n_n.contr.Idx) : (dot_S2000x128_S128x128_S2000x128_1_0_0_1_n_n.lhsIdx i k 1).val = (k ⟨0, by decide⟩).val :=
  dot_S2000x128_S128x128_S2000x128_1_0_0_1_n_n.lhsIdx_val_of_single rfl i k
theorem rhs_row (i : S2000x128.Idx) (k : dot_S2000x128_S128x128_S2000x128_1_0_0_1_n_n.contr.Idx) : (dot_S2000x128_S128x128_S2000x128_1_0_0_1_n_n.rhsIdx i k 0).val = (k ⟨0, by decide⟩).val :=
  dot_S2000x128_S128x128_S2000x128_1_0_0_1_n_n.rhsIdx_val_of_single rfl i k
theorem rhs_col (i : S2000x128.Idx) (k : dot_S2000x128_S128x128_S2000x128_1_0_0_1_n_n.contr.Idx) : (dot_S2000x128_S128x128_S2000x128_1_0_0_1_n_n.rhsIdx i k 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- One entry of the body's result: the sum over the 128 contraction indices of left[p, k] · right[k, q], plus bias[q]. The recast
    of the left block to its own shape and the two changes of float format are the identity, the accumulator is zero, and the bias
    recast as a row and repeated over the rows reads, at (p, q), bias[q]. -/
theorem block_product (x0 : Vec Ideal S2000x128 .f32) (x1 : Vec Ideal S128x128 .f32) (x2 : Vec Ideal S128 .f32) (p : Fin 2000) (q : Fin 128) :
    k2_pay1 (F := Ideal) x0 x1 x2 (ix2 p q) = (∑ k : Fin 128, x0 (ix2 p k) * x1 (ix2 k q)) + x2 (ix1 q) := by
  unfold k2_pay1
  rw [shapeCast_self]
  refine (addf_apply _ _ (ix2 p q)).trans ?_
  refine congrArg₂ (· + ·) ?_ ((broadcastTo_1b_ab_apply _ _ p q).trans (shapeCast_a_1a_apply x2 _ 0 q))
  refine (Ideal.matmul_constant_zero_apply dot_S2000x128_S128x128_S2000x128_1_0_0_1_n_n none _ _ (ix2 p q)).trans ?_
  rw [← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k :=
    funext fun a => Fin.ext (by
      match a with
      | ⟨0, _⟩ => exact lhs_row _ _
      | ⟨1, _⟩ => exact (lhs_col _ _).trans hk)
  have er : dot_S2000x128_S128x128_S2000x128_1_0_0_1_n_n.rhsIdx (ix2 p q) ((contrEquiv1 dot_S2000x128_S128x128_S2000x128_1_0_0_1_n_n 128 rfl rfl).symm k) = ix2 k q :=
    funext fun a => Fin.ext (by
      match a with
      | ⟨0, _⟩ => exact (rhs_row _ _).trans hk
      | ⟨1, _⟩ => exact rhs_col _ _)
  rw [el, er]
  rfl

/-- The same at any index of the block, its two coordinates named. -/
theorem block_product_at (x0 : Vec Ideal S2000x128 .f32) (x1 : Vec Ideal S128x128 .f32) (x2 : Vec Ideal S128 .f32) (j : S2000x128.Idx) :
    k2_pay1 (F := Ideal) x0 x1 x2 j
      = (∑ k : Fin 128, x0 (ix2 (⟨(j 0).val, idx2_lt0 j⟩ : Fin 2000) k) * x1 (ix2 k (⟨(j 1).val, idx2_lt1 j⟩ : Fin 128)))
        + x2 (ix1 (⟨(j 1).val, idx2_lt1 j⟩ : Fin 128)) := by
  have hj : j = ix2 (⟨(j 0).val, idx2_lt0 j⟩ : Fin 2000) (⟨(j 1).val, idx2_lt1 j⟩ : Fin 128) :=
    funext fun a => match a with | ⟨0, _⟩ => rfl | ⟨1, _⟩ => rfl
  exact (congrArg (k2_pay1 (F := Ideal) x0 x1 x2) hj).trans (block_product x0 x1 x2 _ _)

/-- Where the windows sit at grid point t: the left operand's and the output's row block is block t, every column block is block
    0, and the right operand and the bias are each their one block. -/
theorem places : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 1) = 0
    ∧ win2_3.index t (0 : Fin 2) = t.val ∧ win2_3.index t (1 : Fin 2) = 0 :=
  (by decide +kernel : ∀ t : Fin grid2.N, _)

/-- Block t of the biased product, from the whole arrays: the body's result on rows 2000 t … of X, on W and on the bias B, read
    at an entry of the block, is the biased product of the whole arrays read at that entry's place in the output array. -/
theorem block_of_arrays (X : FVec Ideal S50000x128 .f32) (W : FVec Ideal S128x128 .f32) (B : FVec Ideal S128 .f32) (t : Fin cfg2.N) (j : S2000x128.Idx) :
    k2_pay1 (F := Ideal) (((cfg2.win 0).blk t).view.read (Elt Ideal) X) (((cfg2.win 1).blk t).view.read (Elt Ideal) W)
        (((cfg2.win 2).blk t).view.read (Elt Ideal) B) j
      = rowsTimesPlus 50000 128 128 X W B (((cfg2.win 3).blk t).view.emb j) := by
  obtain ⟨e0, e1, e2, e3, e4, e5, e6⟩ := places t
  refine (block_product_at _ _ _ j).trans ?_
  rw [rowsTimesPlus_apply]
  refine congrArg₂ (· + ·) (Finset.sum_congr rfl fun k _ => ?_) ?_
  · show X (((cfg2.win 0).blk t).view.emb (ix2 _ k)) * W (((cfg2.win 1).blk t).view.emb (ix2 k _)) = X (ix2 _ k) * W (ix2 k _)
    refine congrArg₂ (· * ·) (congrArg X (funext fun a => Fin.ext ?_)) (congrArg W (funext fun a => Fin.ext ?_))
    · match a with
      | ⟨0, _⟩ => show win2_0.index t (0 : Fin 2) * 2000 + 1 * (j 0).val = win2_3.index t (0 : Fin 2) * 2000 + 1 * (j 0).val; omega
      | ⟨1, _⟩ => show win2_0.index t (1 : Fin 2) * 128 + 1 * k.val = k.val; omega
    · match a with
      | ⟨0, _⟩ => show win2_1.index t (0 : Fin 2) * 128 + 1 * k.val = k.val; omega
      | ⟨1, _⟩ => show win2_1.index t (1 : Fin 2) * 128 + 1 * (j 1).val = win2_3.index t (1 : Fin 2) * 128 + 1 * (j 1).val; omega
  · show B (((cfg2.win 2).blk t).view.emb (ix1 _)) = B (ix1 _)
    refine congrArg B (funext fun a => Fin.ext ?_)
    match a with
    | ⟨0, _⟩ => show win2_2.index t (0 : Fin 1) * 128 + 1 * (j 1).val = win2_3.index t (1 : Fin 2) * 128 + 1 * (j 1).val; omega

/-- What point t writes back is block t of the biased product of the three arrays as the region finds them. -/
theorem written (c : Dev nD) (t : Fin cfg2.N) :
    (dat2 V c).flushed 3 t = ((cfg2.win 3).blk t).view.read (Elt Ideal) (rowsTimesPlus 50000 128 128 (V c main_v66) (V c main_arg7) (V c main_arg8)) := by
  show (cfg2.win 3).cut (grid2.coords t) ((dat2 V c).after 3 t) = _
  rw [after2_3]
  unfold out2_3
  rw [View.canon_unit_zero origin]
  simp only [View.ld_unit_zero (S := S2000x128) origin, View.ld_unit_zero (S := S128x128) origin, View.ld_unit_zero (S := S128) origin1]
  funext j
  exact block_of_arrays (V c main_v66) (V c main_arg7) (V c main_arg8) t j

/-- An index of the output array lies in point t's block iff each coordinate lies in the block's range on its axis. -/
theorem mem_block (t : Fin cfg2.N) (i : S50000x128.Idx) :
    i ∈ ((cfg2.win 3).blk t).view.set ↔ ∀ a : Fin 2, win2_3.index t a * S2000x128.size a ≤ (i a).val ∧ (i a).val < win2_3.index t a * S2000x128.size a + S2000x128.size a := by
  show i ∈ ((View.whole main_v67).slice (win2_3.rect t)).set ↔ _
  rw [View.set_slice_whole, Rect.mem_set_unit]
  exact Iff.rfl

/-- The 25 row blocks tile the array: row r lies in the block of point r / 2000, and every column lies in the one column block. -/
theorem tiled (i : S50000x128.Idx) : ∃ t : Fin cfg2.N, (cfg2.win 3).flush t = true ∧ i ∈ ((cfg2.win 3).blk t).view.set := by
  have h0 : (i 0).val < 50000 := idx2_lt0 i
  have h1 : (i 1).val < 128 := idx2_lt1 i
  have hN : grid2.N = 25 := N_2
  have hlt : (i 0).val / 2000 < grid2.N := by omega
  obtain ⟨e0, e1, e2, e3, e4, e5, e6⟩ := places ⟨(i 0).val / 2000, hlt⟩
  refine ⟨⟨(i 0).val / 2000, hlt⟩, flush2_3 _, ?_⟩
  rw [mem_block]
  intro a
  match a with
  | ⟨0, _⟩ =>
    show win2_3.index ⟨(i 0).val / 2000, hlt⟩ (0 : Fin 2) * 2000 ≤ (i 0).val ∧ (i 0).val < win2_3.index ⟨(i 0).val / 2000, hlt⟩ (0 : Fin 2) * 2000 + 2000
    have e5' : win2_3.index ⟨(i 0).val / 2000, hlt⟩ (0 : Fin 2) = (i 0).val / 2000 := e5
    omega
  | ⟨1, _⟩ =>
    show win2_3.index ⟨(i 0).val / 2000, hlt⟩ (1 : Fin 2) * 128 ≤ (i 1).val ∧ (i 1).val < win2_3.index ⟨(i 0).val / 2000, hlt⟩ (1 : Fin 2) * 128 + 128
    omega

/-- After the region its output array is the product of its two input arrays plus the bias on every row, as the region found
    them. -/
theorem product (c : Dev nD) :
    (dat2 V c).arrAt 3 cfg2.N = rowsTimesPlus 50000 128 128 (V c main_v66) (V c main_arg7) (V c main_arg8) :=
  (dat2 V c).arrAt_eq_of_cover 3 _ (fun t _ => written V c t) tiled

end Cert.KernelIdeal.Region2

end
-- ==== Proof.Thread2.lean ====
/-
  The kernel program from the end of its second region to its end. The third stretch is the reference's text once more: every edge
  gathers the row of its source from the second product, scales it by the edge's normalisation, the rows are summed into their
  targets and the second bias is added to every row. The third region leaves that result times the last weight matrix plus the
  last bias on every row, which is what the reference's last dot_general, its two repeats of the bias and its sum compute. So the
  kernel program's result array ends holding the reference's result of the same arguments.
-/
import proofs.«132185_j17308718202949_1_alg».proof.Proof.Gen.KernelIdeal.Frame
import proofs.«132185_j17308718202949_1_alg».proof.Proof.Thread1
import proofs.«132185_j17308718202949_1_alg».proof.Proof.Region2

set_option maxRecDepth 16384

noncomputable section

namespace Cert.KernelIdeal.Thread

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg) (c : Dev nD)

/-! ## The third stretch -/

set_option maxHeartbeats 8000000 in
/-- The second aggregation plus the second bias. -/
theorem aggregated8 : W8 m ρ c (Proc.devRef .tc main_v66) = Cert.ReferenceIdeal.Read.val_main_v66 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  show StableHlo.after hostOps2 (W7 m ρ c) (Proc.devRef .tc main_v66) = _
  after_results_simp
  rw [hidden7 m ρ c, sources7 m ρ c, targets7 m ρ c, norm7 m ρ c, arg6_7 m ρ c]
  rfl

set_option maxHeartbeats 4000000 in
theorem arg7_8 : W8 m ρ c (Proc.devRef .tc main_arg7) = m ((c : Thread nD τ).loc main_arg7) := by
  show StableHlo.after hostOps2 (W7 m ρ c) (Proc.devRef .tc main_arg7) = _
  after_results_simp
  exact arg7_7 m ρ c

set_option maxHeartbeats 4000000 in
theorem arg8_8 : W8 m ρ c (Proc.devRef .tc main_arg8) = m ((c : Thread nD τ).loc main_arg8) := by
  show StableHlo.after hostOps2 (W7 m ρ c) (Proc.devRef .tc main_arg8) = _
  after_results_simp
  exact arg8_7 m ρ c

/-! ## After the third region: the result -/

/-- The result array at the end of the program is the reference's result of the launch arguments. -/
theorem result9 : W9 m ρ c (Proc.devRef .tc main_v67) = Cert.ReferenceIdeal.Read.val_main_v70 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W9_arr m ρ c 3).trans ?_
  refine (Cert.KernelIdeal.Region2.product (V8 m ρ) c).trans ?_
  have h0 : V8 m ρ c main_v66 = Cert.ReferenceIdeal.Read.val_main_v66 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := aggregated8 m ρ c
  have h1 : V8 m ρ c main_arg7 = (m ((c : Thread nD τ).loc main_arg7)) := arg7_8 m ρ c
  have h2 : V8 m ρ c main_arg8 = (m ((c : Thread nD τ).loc main_arg8)) := arg8_8 m ρ c
  rw [h0, h1, h2]
  exact (Cert.ReferenceIdeal.RefSpec.biased _ _ _ Cert.ReferenceIdeal.Gen.bcast_S1x128_S50000x128_0_1 Cert.ReferenceIdeal.Gen.bcast_S128_S1x128_1).symm

end Cert.KernelIdeal.Thread

end
-- ==== Proof.lean ====
/-
  A three-layer graph convolution network: the kernel program computes its three matrix products in tiled regions (25 blocks of
  2000 rows each, the whole contraction axis per block, a zero accumulator, the last with the bias added in the block) and every
  other step — the normalisation of the edges, the two gather-scale-sum aggregations with their biases, the relu — by the same
  host operations as the reference. On the extended reals each region leaves the plain product of its two input arrays
  (Region0, Region1, Region2), which is the reference's dot_general of the same arrays (RefSpec); the host operations between them
  are the reference's own, applied to buffers that hold the reference's values (Thread0, Thread1, Thread2). So the result arrays
  agree, index by index, with no property of sums or of finiteness used: every sum is taken over the same index set in the same
  form on both sides. The pass that prints the kernel program for the extended reals applied no rewrite (its ledger is empty, and the
  two printed programs are the same text up to their namespace), so the claim's `preserves` conjunct is stated as `True`.
-/
import proofs.«132185_j17308718202949_1_alg».proof.Defs
import proofs.«132185_j17308718202949_1_alg».proof.Proof.Gen.Kernel
import proofs.«132185_j17308718202949_1_alg».proof.Proof.Gen.Kernel.Skeleton
import proofs.«132185_j17308718202949_1_alg».proof.Proof.Gen.Kernel.Launch
import proofs.«132185_j17308718202949_1_alg».proof.Proof.Gen.Kernel.Points
import proofs.«132185_j17308718202949_1_alg».proof.Proof.Gen.Kernel.Frame
import proofs.«132185_j17308718202949_1_alg».proof.Proof.Gen.KernelIdeal
import proofs.«132185_j17308718202949_1_alg».proof.Proof.Gen.KernelIdeal.Skeleton
import proofs.«132185_j17308718202949_1_alg».proof.Proof.Gen.KernelIdeal.Launch
import proofs.«132185_j17308718202949_1_alg».proof.Proof.Gen.KernelIdeal.Points
import proofs.«132185_j17308718202949_1_alg».proof.Proof.Gen.KernelIdeal.Frame
import proofs.«132185_j17308718202949_1_alg».proof.Proof.Gen.ReferenceIdeal
import proofs.«132185_j17308718202949_1_alg».proof.Proof.Gen.Pre_finite_inputs
import proofs.«132185_j17308718202949_1_alg».proof.Proof.Gen.ReferenceIdeal.Run
import proofs.«132185_j17308718202949_1_alg».proof.Proof.Gen.ReferenceIdeal.Read
import proofs.«132185_j17308718202949_1_alg».proof.Proof.KernelRun
import proofs.«132185_j17308718202949_1_alg».proof.Proof.Thread2
import Idealize.ShloMosaic.Adequacy
import Idealize.ShloMosaic.Init

noncomputable section

namespace Cert.Proof

open Idealize.ShloMosaic Idealize.SL.Sem

/-- The kernel program as printed runs and leaves its arguments alone. -/
theorem frame_kernel : Cert.frame_Kernel := fun m ρ _ => Cert.Kernel.Gen.frame m ρ
/-- So does the kernel program read on the extended reals. -/
theorem frame_kernel_ideal : Cert.frame_KernelIdeal := fun m ρ _ => Cert.KernelIdeal.Gen.frame m ρ
/-- So does the reference: its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The ledger of rewrites is empty, so this conjunct is `True` as stated. -/
theorem preserves : Cert.preserves_Kernel_KernelIdeal := trivial

/-- From memories that agree on the nine arguments, the kernel program's result array and the reference's end equal: the kernel's
    at the last boundary's contents, which are the reference's stages of the launch arguments; the reference's at those stages of
    its own arguments, which are the same arrays. -/
theorem algebraic : Cert.algebraic_KernelIdeal_ReferenceIdeal := by
  intro m ρ m' ρ' _ hagree
  refine ⟨fun c => Cert.KernelIdeal.Gen.W9 m ρ c (Proc.devRef .tc Cert.KernelIdeal.main_v67), Cert.KernelIdeal.RunValue.run m ρ, ?_⟩
  refine (θ_run Cert.ReferenceIdeal.defs _ _).mono (fun _ h c => ⟨(h c).1.trans ?_, (h c).2⟩) (Cert.ReferenceIdeal.Value.run (F := Ideal) m' ρ')
  rw [Cert.ReferenceIdeal.Read.val_main_v70_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]
  exact (Cert.KernelIdeal.Thread.result9 m ρ c).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
